-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S2x128x128 : Shape := ⟨3, ![2, 128, 128]⟩
abbrev S3x128 : Shape := ⟨2, ![3, 128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg4 : FVec F S3x128 .f32) (main_arg5 : FVec F S3x128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg4
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg5
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  main_v28

def fn {F : FTy → Type} [FloatOps F] (main_arg0 : FVec F S100000x128 .f32) (main_arg1 : FVec F S128x128 .f32) (main_arg2 : FVec F S2x128x128 .f32) (main_arg3 : FVec F S3x128 .f32) (main_arg4 : FVec F S3x128 .f32) (main_arg5 : FVec F S3x128 .f32) (main_arg6 : IVec S1600000 32) (main_arg7 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S2x128x128 .f32 := Host.absf main_arg2
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S3x128 .f32 := Host.absf main_arg3
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg4 main_arg5 main_v13 main_v16
-- ==== Kernel.lean ====
abbrev S100000x128 : Shape := ⟨2, ![100000, 128]⟩
abbrev S128x128 : Shape := ⟨2, ![128, 128]⟩
abbrev S2x128x128 : Shape := ⟨3, ![2, 128, 128]⟩
abbrev S3x128 : Shape := ⟨2, ![3, 128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S128 : Shape := ⟨1, ![128]⟩
abbrev S5000x128 : Shape := ⟨2, ![5000, 128]⟩
abbrev S5000 : Shape := ⟨1, ![5000]⟩
abbrev S5000x1 : Shape := ⟨2, ![5000, 1]⟩
abbrev S1x128x128 : Shape := ⟨3, ![1, 128, 128]⟩

abbrev nBuf : Space → Nat
  | .hbm => 146
  | .vmem => 34
  | .smem => 0
  | _ => 0

abbrev hbmTy0_0 (i : Nat) : BufTy := match i % 128 with
  | 0 => ⟨S100000x128, .f32⟩
  | 1 => ⟨S128x128, .f32⟩
  | 2 => ⟨S2x128x128, .f32⟩
  | 3 => ⟨S3x128, .f32⟩
  | 4 => ⟨S3x128, .f32⟩
  | 5 => ⟨S3x128, .f32⟩
  | 6 => ⟨S1600000, .i32⟩
  | 7 => ⟨S1600000, .i32⟩
  | 8 => ⟨S_, .f32⟩
  | 9 => ⟨S1600000, .f32⟩
  | 10 => ⟨S_, .f32⟩
  | 11 => ⟨S100000, .f32⟩
  | 12 => ⟨S1600000x1, .i32⟩
  | 13 => ⟨S100000, .f32⟩
  | 14 => ⟨S_, .f32⟩
  | 15 => ⟨S_, .f32⟩
  | 16 => ⟨S100000, .f32⟩
  | 17 => ⟨S100000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S_, .f32⟩
  | 24 => ⟨S100000, .f32⟩
  | 25 => ⟨S100000, .f32⟩
  | 26 => ⟨S_, .f32⟩
  | 27 => ⟨S100000, .f32⟩
  | 28 => ⟨S100000, .f32⟩
  | 29 => ⟨S_, .f32⟩
  | 30 => ⟨S100000, .f32⟩
  | 31 => ⟨S100000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x128, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S1600000x1, .f32⟩
  | 51 => ⟨S1600000x128, .f32⟩
  | 52 => ⟨S1600000x128, .f32⟩
  | 53 => ⟨S_, .f32⟩
  | 54 => ⟨S100000x128, .f32⟩
  | 55 => ⟨S1600000x1, .i32⟩
  | 56 => ⟨S100000x128, .f32⟩
  | 57 => ⟨S100000x1, .f32⟩
  | 58 => ⟨S100000x128, .f32⟩
  | 59 => ⟨S100000x128, .f32⟩
  | 60 => ⟨S1x128, .f32⟩
  | 61 => ⟨S128, .f32⟩
  | 62 => ⟨S1x128, .f32⟩
  | 63 => ⟨S100000x128, .f32⟩
  | 64 => ⟨S1x128, .f32⟩
  | 65 => ⟨S128, .f32⟩
  | 66 => ⟨S1x128, .f32⟩
  | 67 => ⟨S1x128, .f32⟩
  | 68 => ⟨S128, .f32⟩
  | 69 => ⟨S1x128, .f32⟩
  | 70 => ⟨S100000x128, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x128, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000, .f32⟩
  | 89 => ⟨S1600000x1, .f32⟩
  | 90 => ⟨S1600000x128, .f32⟩
  | 91 => ⟨S1600000x128, .f32⟩
  | 92 => ⟨S_, .f32⟩
  | 93 => ⟨S100000x128, .f32⟩
  | 94 => ⟨S1600000x1, .i32⟩
  | 95 => ⟨S100000x128, .f32⟩
  | 96 => ⟨S100000x1, .f32⟩
  | 97 => ⟨S100000x128, .f32⟩
  | 98 => ⟨S100000x128, .f32⟩
  | 99 => ⟨S1x128, .f32⟩
  | 100 => ⟨S128, .f32⟩
  | 101 => ⟨S1x128, .f32⟩
  | 102 => ⟨S1x128x128, .f32⟩
  | 103 => ⟨S128x128, .f32⟩
  | 104 => ⟨S100000x128, .f32⟩
  | 105 => ⟨S1x128, .f32⟩
  | 106 => ⟨S128, .f32⟩
  | 107 => ⟨S1x128, .f32⟩
  | 108 => ⟨S1x128, .f32⟩
  | 109 => ⟨S128, .f32⟩
  | 110 => ⟨S1x128, .f32⟩
  | 111 => ⟨S100000x128, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x128, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S100000x128, .f32⟩

abbrev hbmTy0_1 (i : Nat) : BufTy := match i % 128 with
  | 0 => ⟨S1600000x1, .i32⟩
  | 1 => ⟨S1600000, .f32⟩
  | 2 => ⟨S1600000x1, .f32⟩
  | 3 => ⟨S1600000x128, .f32⟩
  | 4 => ⟨S1600000x128, .f32⟩
  | 5 => ⟨S_, .f32⟩
  | 6 => ⟨S100000x128, .f32⟩
  | 7 => ⟨S1600000x1, .i32⟩
  | 8 => ⟨S100000x128, .f32⟩
  | 9 => ⟨S100000x1, .f32⟩
  | 10 => ⟨S100000x128, .f32⟩
  | 11 => ⟨S100000x128, .f32⟩
  | 12 => ⟨S1x128, .f32⟩
  | 13 => ⟨S128, .f32⟩
  | 14 => ⟨S1x128, .f32⟩
  | 15 => ⟨S1x128x128, .f32⟩
  | 16 => ⟨S128x128, .f32⟩
  | 17 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v8 : Ref sig .tc := ⟨.hbm, 25, rfl⟩
abbrev main_cst_4 : Ref sig .tc := ⟨.hbm, 26, rfl⟩
abbrev main_v9 : Ref sig .tc := ⟨.hbm, 27, rfl⟩
abbrev main_v10 : Ref sig .tc := ⟨.hbm, 28, rfl⟩
abbrev main_cst_5 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_6 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_7 : Ref sig .tc := ⟨.hbm, 41, rfl⟩
abbrev main_v20 : Ref sig .tc := ⟨.hbm, 42, rfl⟩
abbrev main_v21 : Ref sig .tc := ⟨.hbm, 43, rfl⟩
abbrev main_c_8 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_9 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_10 : Ref sig .tc := ⟨.hbm, 71, rfl⟩
abbrev main_v47 : Ref sig .tc := ⟨.hbm, 72, rfl⟩
abbrev main_v48 : Ref sig .tc := ⟨.hbm, 73, rfl⟩
abbrev main_c_11 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_12 : Ref sig .tc := ⟨.hbm, 80, rfl⟩
abbrev main_v54 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_14 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_15 : Ref sig .tc := ⟨.hbm, 112, rfl⟩
abbrev main_v83 : Ref sig .tc := ⟨.hbm, 113, rfl⟩
abbrev main_v84 : Ref sig .tc := ⟨.hbm, 114, rfl⟩
abbrev main_c_16 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_c_17 : Ref sig .tc := ⟨.hbm, 121, rfl⟩
abbrev main_v90 : Ref sig .tc := ⟨.hbm, 122, rfl⟩
abbrev main_v91 : Ref sig .tc := ⟨.hbm, 123, rfl⟩
abbrev main_c_18 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_19 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc4_stg4_0 : Ref sig .tc := ⟨.vmem, 32, rfl⟩
abbrev cc4_stg4_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31
abbrev cc4_sem4_0 : DmaSem sig := 32
abbrev cc4_sem4_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128_S1x128_1_0 : S3x128.Slices ![1, 0] S1x128
  reduces_S5000x128_S5000 : S5000x128.Reduces [1] S5000
  shapeCasts_S5000_S5000x1 : S5000.ShapeCasts S5000x1
  broadcasts_S5000x1_S5000x128 : S5000x1.Broadcasts S5000x128
  slices_S2x128x128_S1x128x128_0_0_0 : S2x128x128.Slices ![0, 0, 0] S1x128x128
  shapeCasts_S1x128x128_S128x128 : S1x128x128.ShapeCasts S128x128
  shapeCasts_S128x128_S128x128 : S128x128.ShapeCasts S128x128
  slices_S3x128_S1x128_2_0 : S3x128.Slices ![2, 0] S1x128
  slices_S2x128x128_S1x128x128_1_0_0 : S2x128x128.Slices ![1, 0, 0] S1x128x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  gather_S100000_S1600000x1_S1600000_n_0_n_n_0_1_1_wf : GatherDims.WF S100000 S1600000x1 S1600000 [] [0] [] [0] [] 1 ![1]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v35) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v69) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v74) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v72) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S5000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v75) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v75) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v78) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v81) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v82) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v105) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v110) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v108) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v39) S5000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v111) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S2x128x128 : Shape := ⟨3, ![2, 128, 128]⟩
abbrev S3x128 : Shape := ⟨2, ![3, 128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128 : Shape := ⟨2, ![1, 128]⟩
abbrev S128 : Shape := ⟨1, ![128]⟩
abbrev S100000x1 : Shape := ⟨2, ![100000, 1]⟩
abbrev S1600000x128 : Shape := ⟨2, ![1600000, 128]⟩
abbrev S1x128x128 : Shape := ⟨3, ![1, 128, 128]⟩

abbrev nBuf : Space → Nat
  | .hbm => 191
  | .vmem => 0
  | .smem => 0
  | _ => 0

abbrev hbmTy0_0 (i : Nat) : BufTy := match i % 128 with
  | 0 => ⟨S100000x128, .f32⟩
  | 1 => ⟨S128x128, .f32⟩
  | 2 => ⟨S2x128x128, .f32⟩
  | 3 => ⟨S3x128, .f32⟩
  | 4 => ⟨S3x128, .f32⟩
  | 5 => ⟨S3x128, .f32⟩
  | 6 => ⟨S1600000, .i32⟩
  | 7 => ⟨S1600000, .i32⟩
  | 8 => ⟨S_, .f32⟩
  | 9 => ⟨S1600000, .f32⟩
  | 10 => ⟨S_, .f32⟩
  | 11 => ⟨S100000, .f32⟩
  | 12 => ⟨S1600000x1, .i32⟩
  | 13 => ⟨S100000, .f32⟩
  | 14 => ⟨S_, .f32⟩
  | 15 => ⟨S_, .f32⟩
  | 16 => ⟨S100000, .f32⟩
  | 17 => ⟨S100000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S_, .f32⟩
  | 24 => ⟨S100000, .f32⟩
  | 25 => ⟨S100000, .f32⟩
  | 26 => ⟨S_, .f32⟩
  | 27 => ⟨S100000, .f32⟩
  | 28 => ⟨S100000, .f32⟩
  | 29 => ⟨S_, .f32⟩
  | 30 => ⟨S100000, .f32⟩
  | 31 => ⟨S100000, .f32⟩
  | 32 => ⟨S1x128, .f32⟩
  | 33 => ⟨S128, .f32⟩
  | 34 => ⟨S100000x1, .f32⟩
  | 35 => ⟨S100000x128, .f32⟩
  | 36 => ⟨S100000x128, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x128, .f32⟩
  | 46 => ⟨S_, .f32⟩
  | 47 => ⟨S100000x128, .f32⟩
  | 48 => ⟨S1600000x1, .i32⟩
  | 49 => ⟨S100000x128, .f32⟩
  | 50 => ⟨S100000x1, .f32⟩
  | 51 => ⟨S100000x128, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S1x128, .f32⟩
  | 58 => ⟨S128, .f32⟩
  | 59 => ⟨S1x128, .f32⟩
  | 60 => ⟨S128, .f32⟩
  | 61 => ⟨S_, .f32⟩
  | 62 => ⟨S100000, .f32⟩
  | 63 => ⟨S100000x1, .f32⟩
  | 64 => ⟨S_, .f32⟩
  | 65 => ⟨S100000x1, .f32⟩
  | 66 => ⟨S100000x1, .f32⟩
  | 67 => ⟨S100000x128, .f32⟩
  | 68 => ⟨S100000x128, .f32⟩
  | 69 => ⟨S100000x128, .f32⟩
  | 70 => ⟨S_, .f32⟩
  | 71 => ⟨S100000, .f32⟩
  | 72 => ⟨S100000x1, .f32⟩
  | 73 => ⟨S_, .f32⟩
  | 74 => ⟨S100000x1, .f32⟩
  | 75 => ⟨S100000x1, .f32⟩
  | 76 => ⟨S100000x128, .f32⟩
  | 77 => ⟨S100000x128, .f32⟩
  | 78 => ⟨S_, .f32⟩
  | 79 => ⟨S100000x1, .f32⟩
  | 80 => ⟨S100000x1, .f32⟩
  | 81 => ⟨S100000x1, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S1x128x128, .f32⟩
  | 94 => ⟨S128x128, .f32⟩
  | 95 => ⟨S1x128, .f32⟩
  | 96 => ⟨S128, .f32⟩
  | 97 => ⟨S100000x1, .f32⟩
  | 98 => ⟨S100000x128, .f32⟩
  | 99 => ⟨S100000x128, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x128, .f32⟩
  | 109 => ⟨S_, .f32⟩
  | 110 => ⟨S100000x128, .f32⟩
  | 111 => ⟨S1600000x1, .i32⟩
  | 112 => ⟨S100000x128, .f32⟩
  | 113 => ⟨S100000x1, .f32⟩
  | 114 => ⟨S100000x128, .f32⟩
  | 115 => ⟨S100000x128, .f32⟩
  | 116 => ⟨S100000x128, .f32⟩
  | 117 => ⟨S1x128, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S100000x128, .f32⟩
  | 124 => ⟨S1x128, .f32⟩
  | 125 => ⟨S128, .f32⟩
  | 126 => ⟨S1x128, .f32⟩
  | 127 => ⟨S128, .f32⟩
  | _ => ⟨S100000x128, .f32⟩

abbrev hbmTy0_1 (i : Nat) : BufTy := match i % 128 with
  | 0 => ⟨S_, .f32⟩
  | 1 => ⟨S100000, .f32⟩
  | 2 => ⟨S100000x1, .f32⟩
  | 3 => ⟨S_, .f32⟩
  | 4 => ⟨S100000x1, .f32⟩
  | 5 => ⟨S100000x1, .f32⟩
  | 6 => ⟨S100000x128, .f32⟩
  | 7 => ⟨S100000x128, .f32⟩
  | 8 => ⟨S100000x128, .f32⟩
  | 9 => ⟨S_, .f32⟩
  | 10 => ⟨S100000, .f32⟩
  | 11 => ⟨S100000x1, .f32⟩
  | 12 => ⟨S_, .f32⟩
  | 13 => ⟨S100000x1, .f32⟩
  | 14 => ⟨S100000x1, .f32⟩
  | 15 => ⟨S100000x128, .f32⟩
  | 16 => ⟨S100000x128, .f32⟩
  | 17 => ⟨S_, .f32⟩
  | 18 => ⟨S100000x1, .f32⟩
  | 19 => ⟨S100000x1, .f32⟩
  | 20 => ⟨S100000x1, .f32⟩
  | 21 => ⟨S100000x128, .f32⟩
  | 22 => ⟨S100000x128, .f32⟩
  | 23 => ⟨S1x128, .f32⟩
  | 24 => ⟨S100000x128, .f32⟩
  | 25 => ⟨S100000x128, .f32⟩
  | 26 => ⟨S1x128, .f32⟩
  | 27 => ⟨S100000x128, .f32⟩
  | 28 => ⟨S100000x128, .f32⟩
  | 29 => ⟨S_, .f32⟩
  | 30 => ⟨S100000x128, .f32⟩
  | 31 => ⟨S100000x128, .f32⟩
  | 32 => ⟨S1x128x128, .f32⟩
  | 33 => ⟨S128x128, .f32⟩
  | 34 => ⟨S1x128, .f32⟩
  | 35 => ⟨S128, .f32⟩
  | 36 => ⟨S100000x1, .f32⟩
  | 37 => ⟨S100000x128, .f32⟩
  | 38 => ⟨S100000x128, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x128, .f32⟩
  | 48 => ⟨S_, .f32⟩
  | 49 => ⟨S100000x128, .f32⟩
  | 50 => ⟨S1600000x1, .i32⟩
  | 51 => ⟨S100000x128, .f32⟩
  | 52 => ⟨S100000x1, .f32⟩
  | 53 => ⟨S100000x128, .f32⟩
  | 54 => ⟨S100000x128, .f32⟩
  | 55 => ⟨S100000x128, .f32⟩
  | 56 => ⟨S1x128, .f32⟩
  | 57 => ⟨S100000x128, .f32⟩
  | 58 => ⟨S100000x128, .f32⟩
  | 59 => ⟨S_, .f32⟩
  | 60 => ⟨S100000x128, .f32⟩
  | 61 => ⟨S100000x128, .f32⟩
  | 62 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v8 : Ref sig .tc := ⟨.hbm, 25, rfl⟩
abbrev main_cst_4 : Ref sig .tc := ⟨.hbm, 26, rfl⟩
abbrev main_v9 : Ref sig .tc := ⟨.hbm, 27, rfl⟩
abbrev main_v10 : Ref sig .tc := ⟨.hbm, 28, rfl⟩
abbrev main_cst_5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c : Ref sig .tc := ⟨.hbm, 37, rfl⟩
abbrev main_v18 : Ref sig .tc := ⟨.hbm, 38, rfl⟩
abbrev main_v19 : Ref sig .tc := ⟨.hbm, 39, rfl⟩
abbrev main_c_6 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_7 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_cst_9 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_cst_11 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_12 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_call2_cst : Ref sig .tc := ⟨.hbm, 90, rfl⟩
abbrev main_call2_v0 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_13 : Ref sig .tc := ⟨.hbm, 100, rfl⟩
abbrev main_v71 : Ref sig .tc := ⟨.hbm, 101, rfl⟩
abbrev main_v72 : Ref sig .tc := ⟨.hbm, 102, rfl⟩
abbrev main_c_14 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_15 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_16 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_17 : Ref sig .tc := ⟨.hbm, 128, rfl⟩
abbrev main_v95 : Ref sig .tc := ⟨.hbm, 129, rfl⟩
abbrev main_v96 : Ref sig .tc := ⟨.hbm, 130, rfl⟩
abbrev main_cst_18 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_19 : Ref sig .tc := ⟨.hbm, 137, rfl⟩
abbrev main_v102 : Ref sig .tc := ⟨.hbm, 138, rfl⟩
abbrev main_v103 : Ref sig .tc := ⟨.hbm, 139, rfl⟩
abbrev main_cst_20 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_21 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_call3_cst : Ref sig .tc := ⟨.hbm, 157, rfl⟩
abbrev main_call3_v0 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_c_22 : Ref sig .tc := ⟨.hbm, 167, rfl⟩
abbrev main_v127 : Ref sig .tc := ⟨.hbm, 168, rfl⟩
abbrev main_v128 : Ref sig .tc := ⟨.hbm, 169, rfl⟩
abbrev main_c_23 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_cst_24 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_cst_25 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  slices_S3x128_S1x128_0_0 : S3x128.Slices ![0, 0] S1x128
  shapeCasts_S1x128_S128 : S1x128.ShapeCasts S128
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128_S1x128_1_0 : S3x128.Slices ![1, 0] S1x128
  reducesTo_S100000x128_S100000_d1 : S100000x128.ReducesTo [1] S100000
  h_S_ : 0 < S_.numel
  bcast_S_S100000x1 : S_.BroadcastsInDim S100000x1 (![] : Fin 0 → Fin S100000x1.rank)
  slices_S2x128x128_S1x128x128_0_0_0 : S2x128x128.Slices ![0, 0, 0] S1x128x128
  shapeCasts_S1x128x128_S128x128 : S1x128x128.ShapeCasts S128x128
  slices_S3x128_S1x128_2_0 : S3x128.Slices ![2, 0] S1x128
  slices_S2x128x128_S1x128x128_1_0_0 : S2x128x128.Slices ![1, 0, 0] S1x128x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel program's run with its result NAMED. Every weakly fair execution of @main terminates,
  nothing faulting, and the final state agrees, at every buffer that outlives a region, with the last boundary
  of the fold of buffer contents through @main's fourteen segments (five stretches of host operations, then
  region, host stretch, region, ..., region). Read at the result buffer this names the result array as what
  the last region's write-backs leave; read at an argument it gives the argument as launched, since no host
  operation and no region writes an argument.
-/
import proofs.«174308_j60155311947857_1_alg».proof.Proof.FrameAll

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The run, with the result array named as the last boundary's contents at the result buffer and the eight
    arguments as launched. -/
theorem run_named : θ_run defs (onTc (τ := τ) (main (F := F))) ⟨m, fun _ => 0, ρ⟩ (fun r => ∀ c : Dev nD,
      r.2.mem ((c.tc : Thread nD τ).loc main_v111) = W14 m ρ c (Proc.devRef .tc main_v111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨h c _ (mem_uc main_v111 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c)⟩)
    (Cert.KernelIdeal.GenP.run_all m ρ)

end Cert.KernelIdeal.Hand

end
-- ==== Proof.Claims.lean ====
/-
  The five claims, assembled.

  The three frame claims are the generated frame runs (the reference's: its generated run with the
  result forgotten).  The idealization rewrote no operation, so what it preserves is trivially
  true.  The algebraic claim: both programs run; the kernel program's result array ends at the
  contents the last region's write-backs leave, the reference's at its last stage of the launch
  arguments; given that the former IS the latter's function of the kernel-side arguments (the
  hypothesis, proved apart by following the arrays through the five regions and the host
  operations between them), and the two launch memories agree on the arguments, the results are
  one array.
-/
import proofs.«174308_j60155311947857_1_alg».proof.Defs
import proofs.«174308_j60155311947857_1_alg».proof.Proof.Gen.Kernel.Frame
import proofs.«174308_j60155311947857_1_alg».proof.Proof.Gen.KernelIdeal.Frame
import proofs.«174308_j60155311947857_1_alg».proof.Proof.Gen.ReferenceIdeal.Run
import proofs.«174308_j60155311947857_1_alg».proof.Proof.Gen.ReferenceIdeal.Read
import proofs.«174308_j60155311947857_1_alg».proof.Proof.Gen.Pre_finite_inputs
import proofs.«174308_j60155311947857_1_alg».proof.Proof.KernelRun

noncomputable section

open Idealize.ShloMosaic Idealize.ShloMosaic.TcCoe Idealize.SL.Sem

namespace Cert.Proof.Claims

/-- The kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- The two programs end with equal results, GIVEN that the contents the kernel program's last
    region leaves in the result array are the reference's last stage of the launch arguments. -/
theorem algebraic_of
    (hres : ∀ (m : (ℓ : Loc Cert.KernelIdeal.nD Cert.KernelIdeal.τ Cert.KernelIdeal.sig) → Buf (Elt Ideal) ℓ)
        (ρ : Dev Cert.KernelIdeal.nD → PrngReg) (c : Dev Cert.KernelIdeal.nD),
        Cert.KernelIdeal.Gen.W14 m ρ c (Proc.devRef .tc Cert.KernelIdeal.main_v111)
          = Cert.ReferenceIdeal.Read.val_main_v146 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7))) :
    Cert.algebraic_KernelIdeal_ReferenceIdeal := by
  intro m ρ m' ρ' _ hagree
  refine ⟨fun c => Cert.ReferenceIdeal.Read.val_main_v146 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7)), ?_, ?_⟩
  · exact (θ_run Cert.KernelIdeal.defs _ _).mono (fun _ h c => ⟨(h c).1.trans (hres m ρ c), (h c).2⟩)
      (Cert.KernelIdeal.Hand.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v146_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

end Cert.Proof.Claims

end
-- ==== Proof.Keep.lean ====
/-
  Buffers that nothing writes keep their contents along @main.

  The buffer contents at the boundaries of @main's segments are a fold: a stretch of host operations rewrites the
  buffers its operations write and leaves the rest; a region rewrites its own arrays and leaves the rest. So a
  buffer that no operation of a stretch writes reads the same after the stretch as before it, and a buffer that
  is not one of a region's arrays reads the same after the region as before it. Chained: an argument array, which
  nothing writes, holds its launch contents at the first region's entry; a buffer untouched by a region and by the
  host stretch after it holds at the next region's entry what it held at this one's.
-/
import proofs.«174308_j60155311947857_1_alg».proof.Proof.Gen.KernelIdeal.Frame

noncomputable section

namespace Cert.KernelIdeal.Hand

open Cert.KernelIdeal Cert.KernelIdeal.Gen
open Idealize.ShloMosaic Idealize.ShloMosaic.TcCoe Idealize.SL.Sem

/-- No operation of a (literal) stretch of host operations writes the buffer in the goal: each operation writes
    its one result buffer, a different reference. -/
macro "unwritten" : tactic => `(tactic| exact List.forall_iff_forall_mem.mp (by
  simp only [hostOps0, hostOps0_1, hostOps0_2, hostOps0_3, hostOps0_4, hostOps1, hostOps2, hostOps3, hostOps4,
    List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable {F : FTy → Type} [FloatOps F]
variable (m : (ℓ : Loc nD τ sig) → Buf (Elt F) ℓ) (ρ : Dev nD → PrngReg) (c : Dev nD)

/-- At the first region's entry a buffer that none of the five leading stretches writes holds its launch contents. -/
theorem W5_launch (r : Ref sig .tc)
    (h0 : ∀ op ∈ (hostOps0 : List (HloOp τ sig (Elt F))), Proc.devRef .tc r ∉ op.writes)
    (h1 : ∀ op ∈ (hostOps0_1 : List (HloOp τ sig (Elt F))), Proc.devRef .tc r ∉ op.writes)
    (h2 : ∀ op ∈ (hostOps0_2 : List (HloOp τ sig (Elt F))), Proc.devRef .tc r ∉ op.writes)
    (h3 : ∀ op ∈ (hostOps0_3 : List (HloOp τ sig (Elt F))), Proc.devRef .tc r ∉ op.writes)
    (h4 : ∀ op ∈ (hostOps0_4 : List (HloOp τ sig (Elt F))), Proc.devRef .tc r ∉ op.writes) :
    W5 m ρ c (Proc.devRef .tc r) = m ((c : Thread nD τ).loc r) :=
  (StableHlo.after_of_forall_not_mem _ _ h4).trans ((StableHlo.after_of_forall_not_mem _ _ h3).trans
    ((StableHlo.after_of_forall_not_mem _ _ h2).trans ((StableHlo.after_of_forall_not_mem _ _ h1).trans
      (StableHlo.after_of_forall_not_mem (b := Proc.devRef .tc r) hostOps0 (W0 m ρ c) h0))))

/-- Across region 0 and the stretch after it. -/
theorem W7_of_W5 (r : Ref sig .tc) (ha : ∀ w, Pipeline.arrRef spec0 w ≠ r)
    (hh : ∀ op ∈ (hostOps1 : List (HloOp τ sig (Elt F))), Proc.devRef .tc r ∉ op.writes) :
    W7 m ρ c (Proc.devRef .tc r) = W5 m ρ c (Proc.devRef .tc r) :=
  (StableHlo.after_of_forall_not_mem _ _ hh).trans (W6_of_ne m ρ c r ha)

/-- Across region 1 and the stretch after it. -/
theorem W9_of_W7 (r : Ref sig .tc) (ha : ∀ w, Pipeline.arrRef spec1 w ≠ r)
    (hh : ∀ op ∈ (hostOps2 : List (HloOp τ sig (Elt F))), Proc.devRef .tc r ∉ op.writes) :
    W9 m ρ c (Proc.devRef .tc r) = W7 m ρ c (Proc.devRef .tc r) :=
  (StableHlo.after_of_forall_not_mem _ _ hh).trans (W8_of_ne m ρ c r ha)

/-- Across region 2 and the stretch after it. -/
theorem W11_of_W9 (r : Ref sig .tc) (ha : ∀ w, Pipeline.arrRef spec2 w ≠ r)
    (hh : ∀ op ∈ (hostOps3 : List (HloOp τ sig (Elt F))), Proc.devRef .tc r ∉ op.writes) :
    W11 m ρ c (Proc.devRef .tc r) = W9 m ρ c (Proc.devRef .tc r) :=
  (StableHlo.after_of_forall_not_mem _ _ hh).trans (W10_of_ne m ρ c r ha)

/-- Across region 3 and the stretch after it. -/
theorem W13_of_W11 (r : Ref sig .tc) (ha : ∀ w, Pipeline.arrRef spec3 w ≠ r)
    (hh : ∀ op ∈ (hostOps4 : List (HloOp τ sig (Elt F))), Proc.devRef .tc r ∉ op.writes) :
    W13 m ρ c (Proc.devRef .tc r) = W11 m ρ c (Proc.devRef .tc r) :=
  (StableHlo.after_of_forall_not_mem _ _ hh).trans (W12_of_ne m ρ c r ha)

/-! ## The arguments at each region's entry -/

theorem W5_arg0 : W5 m ρ c (Proc.devRef .tc main_arg0) = m ((c : Thread nD τ).loc main_arg0) :=
  W5_launch m ρ c main_arg0 (by unwritten) (by unwritten) (by unwritten) (by unwritten) (by unwritten)
theorem W5_arg1 : W5 m ρ c (Proc.devRef .tc main_arg1) = m ((c : Thread nD τ).loc main_arg1) :=
  W5_launch m ρ c main_arg1 (by unwritten) (by unwritten) (by unwritten) (by unwritten) (by unwritten)
theorem W5_arg2 : W5 m ρ c (Proc.devRef .tc main_arg2) = m ((c : Thread nD τ).loc main_arg2) :=
  W5_launch m ρ c main_arg2 (by unwritten) (by unwritten) (by unwritten) (by unwritten) (by unwritten)
theorem W5_arg3 : W5 m ρ c (Proc.devRef .tc main_arg3) = m ((c : Thread nD τ).loc main_arg3) :=
  W5_launch m ρ c main_arg3 (by unwritten) (by unwritten) (by unwritten) (by unwritten) (by unwritten)
theorem W5_arg4 : W5 m ρ c (Proc.devRef .tc main_arg4) = m ((c : Thread nD τ).loc main_arg4) :=
  W5_launch m ρ c main_arg4 (by unwritten) (by unwritten) (by unwritten) (by unwritten) (by unwritten)
theorem W5_arg5 : W5 m ρ c (Proc.devRef .tc main_arg5) = m ((c : Thread nD τ).loc main_arg5) :=
  W5_launch m ρ c main_arg5 (by unwritten) (by unwritten) (by unwritten) (by unwritten) (by unwritten)
theorem W5_arg6 : W5 m ρ c (Proc.devRef .tc main_arg6) = m ((c : Thread nD τ).loc main_arg6) :=
  W5_launch m ρ c main_arg6 (by unwritten) (by unwritten) (by unwritten) (by unwritten) (by unwritten)
theorem W5_arg7 : W5 m ρ c (Proc.devRef .tc main_arg7) = m ((c : Thread nD τ).loc main_arg7) :=
  W5_launch m ρ c main_arg7 (by unwritten) (by unwritten) (by unwritten) (by unwritten) (by unwritten)

end Cert.KernelIdeal.Hand

end
-- ==== Proof.SpecShapes.lean ====
/-
  The three array shapes the layer functions are stated over, and the reading of one row of a
  three-row parameter table as a single-row array.
-/
import Idealize.ShloMosaic.PureOps.Ideal
import Idealize.ShloMosaic.Lib.ValueIdx

noncomputable section

namespace Cert.Spec

open Idealize.ShloMosaic Idealize.ShloMosaic.ValueIdx

/-- Node features: one row of 128 features per node. -/
abbrev SN : Shape := ⟨2, ![100000, 128]⟩
/-- A layer's weight matrix. -/
abbrev SW : Shape := ⟨2, ![128, 128]⟩
/-- A single row of 128 per-feature parameters (a bias, a scale or a shift). -/
abbrev SR : Shape := ⟨2, ![1, 128]⟩
/-- A flat vector of 128 per-feature parameters. -/
abbrev SV : Shape := ⟨1, ![128]⟩

/-- A flat vector of per-feature parameters read as a single-row array. -/
def rowOf (v : SV.Idx → EReal) : SR.Idx → EReal := fun j => v (ix1 (j 1))

end Cert.Spec

end
-- ==== Proof.DenseSpec.lean ====
/-
  One dense layer of the network, entry by entry.

  A layer multiplies the node features by a 128 x 128 weight matrix and adds a bias row:
  entry (p, q) of the result is the sum over k of A (p, k) * W (k, q), plus b (0, q).  The
  second and third layers also add one half of the first layer's output, entry by entry.
  Everything is an exact expression over the extended reals; the half is kept as the real
  its 32-bit word denotes and is never evaluated.
-/
import proofs.«174308_j60155311947857_1_alg».proof.Proof.SpecShapes

noncomputable section

open scoped BigOperators

namespace Cert.Spec

open Idealize.ShloMosaic Idealize.ShloMosaic.ValueIdx

/-- The dense layer: entry (p, q) is the contraction of row p of `A` with column q of `W`,
    plus the bias of column q. -/
def dense (A : SN.Idx → EReal) (W : SW.Idx → EReal) (b : SR.Idx → EReal) : SN.Idx → EReal :=
  fun i => (∑ k : Fin 128, A (ix2 (i 0 : Fin 100000) k) * W (ix2 k (i 1 : Fin 128)))
    + b (ix2 (0 : Fin 1) (i 1 : Fin 128))

/-- The dense layer at an index given by its coordinates. -/
theorem dense_ix2 (A : SN.Idx → EReal) (W : SW.Idx → EReal) (b : SR.Idx → EReal)
    (p : Fin 100000) (q : Fin 128) :
    dense A W b (ix2 p q) = (∑ k : Fin 128, A (ix2 p k) * W (ix2 k q)) + b (ix2 (0 : Fin 1) q) := rfl

/-- The real that the 32-bit word of one half denotes. -/
def half : EReal := Ideal.ofBits .f32 0x3F000000#32

/-- The dense layer with a residual: the dense layer plus one half of `O`, entry by entry
    (the half multiplies from the left, and the product is the right summand). -/
def denseRes (A : SN.Idx → EReal) (W : SW.Idx → EReal) (b : SR.Idx → EReal) (O : SN.Idx → EReal) :
    SN.Idx → EReal :=
  fun i => dense A W b i + half * O i

/-- The residual layer at an index given by its coordinates. -/
theorem denseRes_ix2 (A : SN.Idx → EReal) (W : SW.Idx → EReal) (b : SR.Idx → EReal) (O : SN.Idx → EReal)
    (p : Fin 100000) (q : Fin 128) :
    denseRes A W b O (ix2 p q)
      = ((∑ k : Fin 128, A (ix2 p k) * W (ix2 k q)) + b (ix2 (0 : Fin 1) q)) + half * O (ix2 p q) := rfl

end Cert.Spec

end
-- ==== Proof.DensePay.lean ====
/-
  The three dense bodies, entry by entry, at the extended reals.

  Each body multiplies its 5000 x 128 block of rows by the 128 x 128 weight block on a zero
  accumulator and adds the bias row to every row; the second and third bodies then add one half
  of the matching block of the first layer's output.  Over the extended reals a change of float
  format is the identity and a same-shape cast is the identity, so entry (p, q) of the result is
  the sum over k of x0 (p, k) * x1 (k, q), plus x2 (0, q), plus (for the residual bodies) one
  half of x3 (p, q).
-/
import proofs.«174308_j60155311947857_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- The left operand of the block product is read along the output's row … -/
theorem blockDot_lhs0 (i : S5000x128.Idx) (r : dot_S5000x128_S128x128_S5000x128_1_0_0_1_n_n.contr.Idx) :
    (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- … and the right operand down the output's column. -/
theorem blockDot_rhs1 (i : S5000x128.Idx) (r : dot_S5000x128_S128x128_S5000x128_1_0_0_1_n_n.contr.Idx) :
    (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The block product on a zero accumulator, at entry (p, q): the sum over the one contracted
    axis of a (p, k) * w (k, q). -/
theorem blockDot_ix2 (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  show FloatOps.matmul dot_S5000x128_S128x128_S5000x128_1_0_0_1_n_n none a w (constant (F := Ideal) S5000x128 .f32 0x00000000#32) (ix2 p q) = _
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun d => Fin.ext (by
      match d with
      | ⟨0, _⟩ => exact blockDot_lhs0 _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun d => Fin.ext (by
      match d with
      | ⟨0, _⟩ => exact (dot_S5000x128_S128x128_S5000x128_1_0_0_1_n_n.rhsIdx_val_of_single rfl _ _).trans hk
      | ⟨1, _⟩ => exact blockDot_rhs1 _ _)
  rw [el, er]

/-- The bias row broadcast over the 5000 rows, at entry (p, q): the row's entry (0, q). -/
theorem biasRows_ix2 (x2 : Vec Ideal S1x128 .f32) (p : Fin 5000) (q : Fin 128) :
    broadcastTo S5000x128 x2 broadcasts_S1x128_S5000x128 (ix2 p q) = x2 (ix2 (0 : Fin 1) q) :=
  broadcastTo_apply x2 broadcasts_S1x128_S5000x128 (ix2 p q) (ix2 (0 : Fin 1) q) (fun d => match d with
    | ⟨0, _⟩ => by show 0 = if (1 : Nat) = 1 then 0 else p.val; rw [if_pos rfl]
    | ⟨1, _⟩ => by show q.val = if (128 : Nat) = 1 then 0 else q.val; rw [if_neg (by decide)])

/-- The first layer's body at entry (p, q). -/
theorem k0_pay1_ix2 (x0 : Vec Ideal S5000x128 .f32) (x1 : Vec Ideal S128x128 .f32) (x2 : Vec Ideal S1x128 .f32)
    (p : Fin 5000) (q : Fin 128) :
    k0_pay1 x0 x1 x2 (ix2 p q) = (∑ k : Fin 128, x0 (ix2 p k) * x1 (ix2 k q)) + x2 (ix2 (0 : Fin 1) q) := by
  show addf (matmul dot_S5000x128_S128x128_S5000x128_1_0_0_1_n_n none
        (truncf .bf16 (shapeCast S5000x128 x0 shapeCasts_S5000x128_S5000x128) bitsLt_bf16_f32)
        (truncf .bf16 x1 bitsLt_bf16_f32) (constant (F := Ideal) S5000x128 .f32 0x00000000#32))
      (broadcastTo S5000x128 (shapeCast S1x128 x2 shapeCasts_S1x128_S1x128) broadcasts_S1x128_S5000x128) (ix2 p q) = _
  rw [addf_apply, shapeCast_self, shapeCast_self, blockDot_ix2, biasRows_ix2]
  rfl

/-- The second layer's body at entry (p, q): the dense entry plus one half of x3 (p, q). -/
theorem k2_pay1_ix2 (x0 : Vec Ideal S5000x128 .f32) (x1 : Vec Ideal S128x128 .f32) (x2 : Vec Ideal S1x128 .f32)
    (x3 : Vec Ideal S5000x128 .f32) (p : Fin 5000) (q : Fin 128) :
    k2_pay1 x0 x1 x2 x3 (ix2 p q)
      = ((∑ k : Fin 128, x0 (ix2 p k) * x1 (ix2 k q)) + x2 (ix2 (0 : Fin 1) q))
        + Ideal.ofBits .f32 0x3F000000#32 * x3 (ix2 p q) := by
  show addf (addf (matmul dot_S5000x128_S128x128_S5000x128_1_0_0_1_n_n none
        (truncf .bf16 (shapeCast S5000x128 x0 shapeCasts_S5000x128_S5000x128) bitsLt_bf16_f32)
        (truncf .bf16 (shapeCast S128x128 x1 shapeCasts_S128x128_S128x128) bitsLt_bf16_f32)
        (constant (F := Ideal) S5000x128 .f32 0x00000000#32))
      (broadcastTo S5000x128 (shapeCast S1x128 x2 shapeCasts_S1x128_S1x128) broadcasts_S1x128_S5000x128))
      (mulf (broadcast S5000x128 (Scalar.ofBits (F := Ideal) .f32 0x3F000000#32))
        (shapeCast S5000x128 x3 shapeCasts_S5000x128_S5000x128)) (ix2 p q) = _
  rw [addf_apply, addf_apply, mulf_apply, shapeCast_self, shapeCast_self, shapeCast_self, shapeCast_self,
    blockDot_ix2, biasRows_ix2]
  rfl

/-- The third layer's body is the second's, word for word. -/
theorem k4_pay1_eq (x0 : Vec Ideal S5000x128 .f32) (x1 : Vec Ideal S128x128 .f32) (x2 : Vec Ideal S1x128 .f32)
    (x3 : Vec Ideal S5000x128 .f32) : k4_pay1 x0 x1 x2 x3 = k2_pay1 x0 x1 x2 x3 := rfl

/-- The third layer's body at entry (p, q). -/
theorem k4_pay1_ix2 (x0 : Vec Ideal S5000x128 .f32) (x1 : Vec Ideal S128x128 .f32) (x2 : Vec Ideal S1x128 .f32)
    (x3 : Vec Ideal S5000x128 .f32) (p : Fin 5000) (q : Fin 128) :
    k4_pay1 x0 x1 x2 x3 (ix2 p q)
      = ((∑ k : Fin 128, x0 (ix2 p k) * x1 (ix2 k q)) + x2 (ix2 (0 : Fin 1) q))
        + Ideal.ofBits .f32 0x3F000000#32 * x3 (ix2 p q) := by
  rw [k4_pay1_eq]; exact k2_pay1_ix2 x0 x1 x2 x3 p q

end Cert.KernelIdeal.Hand

end
-- ==== Proof.Region0.lean ====
/-
  The first dense region, from blocks to the array.

  The region runs over 20 points; at point t it reads rows 5000 t .. 5000 t + 4999 of the
  aggregated features (all 128 columns), the whole weight matrix and the whole bias row, and
  writes the same rows of its output.  Entry (p, q) of the block the body stores is the dense
  layer's entry (5000 t + p, q) of the three arrays as the region finds them, so what point t
  writes back is block t of one function of those arrays; row r lies in the block of point
  r / 5000, so the blocks cover the output and the output ends holding that function.
-/
import proofs.«174308_j60155311947857_1_alg».proof.Proof.Gen.KernelIdeal.Frame
import proofs.«174308_j60155311947857_1_alg».proof.Proof.DenseSpec
import proofs.«174308_j60155311947857_1_alg».proof.Proof.DensePay
import Idealize.ShloMosaic.Lib.Pipeline.Value

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

/-- The body's accesses all start at offset zero on both axes. -/
theorem region0_hz : (![0, 0] : Fin 2 → Nat) = fun _ => 0 := funext fun a => by fin_cases a <;> rfl

/-- The block indices at point t, decided over the grid: the two row-blocked windows sit at
    block (t, 0), the weight matrix and the bias row at block (0, 0). -/
theorem region0_idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One stored entry against the dense layer: if the row block is rows 5000 T .. of `A`, and the
    weight and bias blocks are `W` and `b`, then entry j of the body's payload is the dense
    layer's entry (5000 T + j 0, j 1). -/
theorem region0_entry (A : Cert.Spec.SN.Idx → EReal) (W : Cert.Spec.SW.Idx → EReal) (b : Cert.Spec.SR.Idx → EReal)
    (x0 : Vec Ideal S5000x128 .f32) (x1 : Vec Ideal S128x128 .f32) (x2 : Vec Ideal S1x128 .f32) (T : Nat)
    (h0 : ∀ (y : S5000x128.Idx) (i : Cert.Spec.SN.Idx), (i 0).val = T * 5000 + (y 0).val → (i 1).val = (y 1).val → x0 y = A i)
    (h1 : x1 = W) (h2 : x2 = b)
    (j : S5000x128.Idx) (i : Cert.Spec.SN.Idx) (hi0 : (i 0).val = T * 5000 + (j 0).val) (hi1 : (i 1).val = (j 1).val) :
    k0_pay1 x0 x1 x2 j = Cert.Spec.dense A W b i := by
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  have hs : s = q := Fin.ext hi1
  subst hs
  rw [k0_pay1_ix2, Cert.Spec.dense_ix2, h1, h2]
  congr 2
  funext k
  rw [h0 (ix2 p k) (ix2 r k) hi0 rfl]

variable (V : (c : Dev nD) → (b : Ref sig .tc) → Buf (Elt Ideal) ((c : Thread nD τ).loc b))

/-- WHAT POINT t WRITES BACK is block t of the dense layer of the three arrays as the region
    finds them. -/
theorem region0_flushed (c : Dev nD) (t : Fin cfg0.N) :
    (dat0 (F := Ideal) V c).flushed 3 t
      = ((cfg0.win 3).blk t).view.read (Elt Ideal)
          (Cert.Spec.dense (V c main_v35) (V c main_arg1) (V c main_v38)) := by
  show (cfg0.win 3).cut (grid0.coords t) ((dat0 (F := Ideal) V c).after 3 t) = _
  rw [after0_3]
  unfold out0_3
  rw [View.canon_unit_zero region0_hz]
  simp only [View.ld_unit_zero (S := S5000x128) region0_hz, View.ld_unit_zero (S := S128x128) region0_hz,
    View.ld_unit_zero (S := S1x128) region0_hz]
  obtain ⟨e00, e01, e10, e11, e20, e21, e30, e31⟩ := region0_idx t
  funext j
  show k0_pay1 (iblk0 V c 0 t) (iblk0 V c 1 t) (iblk0 V c 2 t) j
    = Cert.Spec.dense (V c main_v35) (V c main_arg1) (V c main_v38) (((cfg0.win 3).blk t).view.emb j)
  refine region0_entry (V c main_v35) (V c main_arg1) (V c main_v38) (iblk0 V c 0 t) (iblk0 V c 1 t) (iblk0 V c 2 t)
    t.val ?_ ?_ ?_ j (((cfg0.win 3).blk t).view.emb j) ?_ ?_
  · -- the row block: rows 5000 t .. 5000 t + 4999, every column
    intro y i hy0 hy1
    show V c main_v35 (((cfg0.win 0).blk t).view.emb y) = V c main_v35 i
    congr 1
    funext a
    apply Fin.ext
    match a with
    | ⟨0, _⟩ => show win0_0.index t (0 : Fin 2) * 5000 + 1 * (y 0).val = (i 0).val; omega
    | ⟨1, _⟩ => show win0_0.index t (1 : Fin 2) * 128 + 1 * (y 1).val = (i 1).val; omega
  · -- the weight block is the whole matrix
    funext y
    show V c main_arg1 (((cfg0.win 1).blk t).view.emb y) = V c main_arg1 y
    congr 1
    funext a
    apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega
  · -- the bias block is the whole row
    funext y
    show V c main_v38 (((cfg0.win 2).blk t).view.emb y) = V c main_v38 y
    congr 1
    funext a
    apply Fin.ext
    match a with
    | ⟨0, _⟩ => show win0_2.index t (0 : Fin 2) * 1 + 1 * (y 0).val = (y 0).val; omega
    | ⟨1, _⟩ => show win0_2.index t (1 : Fin 2) * 128 + 1 * (y 1).val = (y 1).val; omega
  · show win0_3.index t (0 : Fin 2) * 5000 + 1 * (j 0).val = t.val * 5000 + (j 0).val; omega
  · show win0_3.index t (1 : Fin 2) * 128 + 1 * (j 1).val = (j 1).val; omega

/-- An index of the output is in point t's block iff each coordinate is in the block's range. -/
theorem region0_mem (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v39).slice (win0_3.rect t)).set ↔ _
  rw [View.set_slice_whole, Rect.mem_set_unit]
  exact Iff.rfl

/-- Every index of the output is in some point's block: row r is in the block of point r / 5000. -/
theorem region0_cover (i : S100000x128.Idx) :
    ∃ t : Fin cfg0.N, (cfg0.win 3).flush t = true ∧ i ∈ ((cfg0.win 3).blk t).view.set := by
  have h0 : (i 0).val < 100000 := (i 0).isLt
  have h1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, -, -, e30, e31⟩ := region0_idx t
  refine ⟨t, flush0_3 t, ?_⟩
  rw [region0_mem]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- THE OUTPUT after the region: the dense layer of the aggregated features, the weight matrix
    and the bias row as the region finds them. -/
theorem region0_out (c : Dev nD) :
    (dat0 (F := Ideal) V c).arrAt 3 cfg0.N
      = Cert.Spec.dense (V c main_v35) (V c main_arg1) (V c main_v38) :=
  (dat0 (F := Ideal) V c).arrAt_eq_of_cover 3 (Cert.Spec.dense (V c main_v35) (V c main_arg1) (V c main_v38))
    (fun t _ => region0_flushed V c t) region0_cover

end Cert.KernelIdeal.Hand

end
-- ==== Proof.DenseRef.lean ====
/-
  The reference's dense stages, entry by entry.

  The reference computes a layer with a host product of the node features and the weight matrix,
  adds the bias vector broadcast first to a single row and then to every row, and for the second
  and third layers adds one half (a scalar constant broadcast to the array) times the first
  layer's output.  Over the extended reals the host product's entry (p, q) is the sum over k of
  A (p, k) * W (k, q), and each broadcast reads its operand at the matching coordinates, so these
  stages are the dense layer and the residual layer of the specification.
-/
import proofs.«174308_j60155311947857_1_alg».proof.Proof.Gen.ReferenceIdeal.Read
import proofs.«174308_j60155311947857_1_alg».proof.Proof.DenseSpec

noncomputable section

open scoped BigOperators

namespace Cert.RefHand

open Cert.ReferenceIdeal Cert.ReferenceIdeal.Gen Idealize.ShloMosaic Idealize.ShloMosaic.ValueIdx

/-- The host product at entry (p, q): the sum over the one contracted axis of A (p, k) * W (k, q). -/
theorem hostDot_ix2 (A : FVec Ideal S100000x128 .f32) (W : FVec Ideal S128x128 .f32) (p : Fin 100000) (q : Fin 128) :
    Host.dotGeneral dot_S100000x128_S128x128_S100000x128_1_0_0_1_n_n none A W (ix2 p q)
      = ∑ k : Fin 128, A (ix2 p k) * W (ix2 k q) := by
  simp only [Host.dotGeneral]
  rw [Ideal.dotGeneral_apply,
    ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 p q)
      ((contrEquiv1 dot_S100000x128_S128x128_S100000x128_1_0_0_1_n_n 128 rfl rfl).symm k) = ix2 p k :=
    funext fun d => Fin.ext (by
      match d with
      | ⟨0, _⟩ => exact Read.lhs_main_v31_0 _ _
      | ⟨1, _⟩ => exact (Read.lhs_main_v31_1 _ _).trans hk)
  have er : dot_S100000x128_S128x128_S100000x128_1_0_0_1_n_n.rhsIdx (ix2 p q)
      ((contrEquiv1 dot_S100000x128_S128x128_S100000x128_1_0_0_1_n_n 128 rfl rfl).symm k) = ix2 k q :=
    funext fun d => Fin.ext (by
      match d with
      | ⟨0, _⟩ => exact (Read.rhs_main_v31_0 _ _).trans hk
      | ⟨1, _⟩ => exact Read.rhs_main_v31_1 _ _)
  rw [el, er]

/-- The bias vector broadcast to a single row and then to every row, at entry (p, q): the
    vector's entry q. -/
theorem biasRef_ix2 (bv : FVec Ideal S128 .f32) (p : Fin 100000) (q : Fin 128) :
    broadcastInDim S100000x128 ![0, 1] bcast_S1x128_S100000x128_0_1
        (broadcastInDim S1x128 ![1] bcast_S128_S1x128_1 bv) (ix2 p q) = bv (ix1 q) :=
  (broadcastInDim_apply _ bcast_S1x128_S100000x128_0_1 (broadcastInDim S1x128 ![1] bcast_S128_S1x128_1 bv)
      (ix2 p q) (ix2 (0 : Fin 1) q) (fun d => match d with
        | ⟨0, _⟩ => by show 0 = if (1 : Nat) = 1 then 0 else p.val; rw [if_pos rfl]
        | ⟨1, _⟩ => by show q.val = if (128 : Nat) = 1 then 0 else q.val; rw [if_neg (by decide)])).trans
    (broadcastInDim_apply _ bcast_S128_S1x128_1 bv (ix2 (0 : Fin 1) q) (ix1 q) (fun d => match d with
        | ⟨0, _⟩ => by show q.val = if (128 : Nat) = 1 then 0 else q.val; rw [if_neg (by decide)]))

/-- The scalar constant one half broadcast to the array reads the real its word denotes. -/
theorem halfRef_apply (i : S100000x128.Idx) :
    broadcastInDim S100000x128 ![] bcast_S_S100000x128 (constant (F := Ideal) S_ .f32 0x3F000000#32) i
      = Cert.Spec.half :=
  (broadcastInDim_apply _ bcast_S_S100000x128 (constant (F := Ideal) S_ .f32 0x3F000000#32) i
    (fun a => a.elim0) (fun a => a.elim0)).trans rfl

/-- THE REFERENCE'S DENSE STAGE is the dense layer of its operands. -/
theorem dense_ref (A : FVec Ideal S100000x128 .f32) (W : FVec Ideal S128x128 .f32) (bv : FVec Ideal S128 .f32) :
    addf (Host.dotGeneral dot_S100000x128_S128x128_S100000x128_1_0_0_1_n_n none A W)
        (broadcastInDim S100000x128 ![0, 1] bcast_S1x128_S100000x128_0_1
          (broadcastInDim S1x128 ![1] bcast_S128_S1x128_1 bv))
      = Cert.Spec.dense A W (Cert.Spec.rowOf bv) := by
  funext i
  obtain ⟨p, q, rfl⟩ : ∃ (p : Fin 100000) (q : Fin 128), i = ix2 p q := ⟨i 0, i 1, eq_ix2 i⟩
  rw [addf_apply, hostDot_ix2, biasRef_ix2, Cert.Spec.dense_ix2]
  rfl

/-- THE REFERENCE'S RESIDUAL STAGE is the residual layer of its operands. -/
theorem denseRes_ref (A : FVec Ideal S100000x128 .f32) (W : FVec Ideal S128x128 .f32) (bv : FVec Ideal S128 .f32)
    (O : FVec Ideal S100000x128 .f32) :
    addf (addf (Host.dotGeneral dot_S100000x128_S128x128_S100000x128_1_0_0_1_n_n none A W)
          (broadcastInDim S100000x128 ![0, 1] bcast_S1x128_S100000x128_0_1
            (broadcastInDim S1x128 ![1] bcast_S128_S1x128_1 bv)))
        (mulf (broadcastInDim S100000x128 ![] bcast_S_S100000x128 (constant (F := Ideal) S_ .f32 0x3F000000#32)) O)
      = Cert.Spec.denseRes A W (Cert.Spec.rowOf bv) O := by
  rw [dense_ref]
  funext i
  rw [addf_apply, mulf_apply, halfRef_apply]
  rfl

/-! ## The three layers' stages as these terms -/

section Stages
variable (x0 : (⟨S100000x128, .f32⟩ : BufTy).Contents (Elt Ideal)) (x1 : (⟨S128x128, .f32⟩ : BufTy).Contents (Elt Ideal))
  (x2 : (⟨S2x128x128, .f32⟩ : BufTy).Contents (Elt Ideal)) (x3 x4 x5 : (⟨S3x128, .f32⟩ : BufTy).Contents (Elt Ideal))
  (x6 x7 : (⟨S1600000, .i32⟩ : BufTy).Contents (Elt Ideal))

/-- The first layer's output stage is the dense layer of its operand stages. -/
theorem val_main_v34_dense :
    Read.val_main_v34 (F := Ideal) x0 x1 x3 x6 x7
      = Cert.Spec.dense (Read.val_main_v30 (F := Ideal) x0 x6 x7) x1 (Cert.Spec.rowOf (Read.val_main_v14 (F := Ideal) x3)) :=
  dense_ref (Read.val_main_v30 (F := Ideal) x0 x6 x7) x1 (Read.val_main_v14 (F := Ideal) x3)

/-- The second layer's output stage is the residual layer of its operand stages and the first
    layer's output. -/
theorem val_main_v90_denseRes :
    Read.val_main_v90 (F := Ideal) x0 x1 x2 x3 x4 x5 x6 x7
      = Cert.Spec.denseRes (Read.val_main_v83 (F := Ideal) x0 x1 x3 x4 x5 x6 x7) (Read.val_main_v65 (F := Ideal) x2)
          (Cert.Spec.rowOf (Read.val_main_v67 (F := Ideal) x3)) (Read.val_main_v34 (F := Ideal) x0 x1 x3 x6 x7) :=
  denseRes_ref (Read.val_main_v83 (F := Ideal) x0 x1 x3 x4 x5 x6 x7) (Read.val_main_v65 (F := Ideal) x2)
    (Read.val_main_v67 (F := Ideal) x3) (Read.val_main_v34 (F := Ideal) x0 x1 x3 x6 x7)

/-- The last stage is the residual layer of its operand stages and the first layer's output. -/
theorem val_main_v146_denseRes :
    Read.val_main_v146 (F := Ideal) x0 x1 x2 x3 x4 x5 x6 x7
      = Cert.Spec.denseRes (Read.val_main_v139 (F := Ideal) x0 x1 x2 x3 x4 x5 x6 x7) (Read.val_main_v121 (F := Ideal) x2)
          (Cert.Spec.rowOf (Read.val_main_v123 (F := Ideal) x3)) (Read.val_main_v34 (F := Ideal) x0 x1 x3 x6 x7) :=
  denseRes_ref (Read.val_main_v139 (F := Ideal) x0 x1 x2 x3 x4 x5 x6 x7) (Read.val_main_v121 (F := Ideal) x2)
    (Read.val_main_v123 (F := Ideal) x3) (Read.val_main_v34 (F := Ideal) x0 x1 x3 x6 x7)

end Stages

end Cert.RefHand

end
-- ==== Proof.GatherLaw.lean ====
/-
  Gathering commutes with scaling each node's row.

  Both gathers of this program read, for edge `e`, the node whose number is the edge's start index read as a
  signed integer and clamped into [0, 99999]: the gather of the [100000, 128] feature array gives edge `e` that
  node's whole row, the gather of a [100000] vector gives it that node's entry. Hence scaling every node's row
  by the node's entry and then gathering rows is the same array as gathering rows and entries separately and
  scaling each edge's row by its entry: at edge `e`, column `j`, both are
  `feat (node e, j) * scale (node e)`. No law of arithmetic is used beyond reading both sides at an index.
-/
import proofs.«174308_j60155311947857_1_alg».proof.Proof.Gen.KernelIdeal
import Idealize.ShloMosaic.Lib.Pipeline.Value
import Idealize.ShloMosaic.Lib.ValueIdx

noncomputable section

namespace Cert.KernelIdeal.Hand

open Cert.KernelIdeal Idealize.ShloMosaic Idealize.ShloMosaic.ValueIdx

/-- The row gather: edge `e`, column `j` reads node row `node e`, column `j`. -/
abbrev gRow := gather_S100000x128_S1600000x1_S1600000x128_1_0_n_n_0_1_1128
/-- The entry gather: edge `e` reads entry `node e`. -/
abbrev gEnt := gather_S100000_S1600000x1_S1600000_n_0_n_n_0_1_1

/-- The edge of an (edge, column) index. -/
abbrev edgeOf (y : S1600000x128.Idx) : S1600000.Idx := fun a => match a with
  | ⟨0, _⟩ => ⟨(y 0).val, (y 0).isLt⟩
/-- The (edge, 0) index of the keepdims column of per-edge entries. -/
abbrev edgeCol (y : S1600000x128.Idx) : S1600000x1.Idx := fun a => match a with
  | ⟨0, _⟩ => ⟨(y 0).val, (y 0).isLt⟩
  | ⟨1, _⟩ => ⟨0, Nat.one_pos⟩
/-- The node of a (node, column) index. -/
abbrev nodeOf (i : S100000x128.Idx) : S100000.Idx := fun a => match a with
  | ⟨0, _⟩ => ⟨(i 0).val, (i 0).isLt⟩
/-- The (node, 0) index of the keepdims column of per-node entries. -/
abbrev nodeCol (i : S100000x128.Idx) : S100000x1.Idx := fun a => match a with
  | ⟨0, _⟩ => ⟨(i 0).val, (i 0).isLt⟩
  | ⟨1, _⟩ => ⟨0, Nat.one_pos⟩

/-- The node the entry gather reads for edge `e` is the node whose row the row gather reads for `(e, j)`. -/
theorem node_eq {w : Nat} (I : IVec S1600000x1 w) (y : S1600000x128.Idx) :
    gEnt.operandIdx (edgeOf y) I = nodeOf (gRow.operandIdx y I) := by
  funext a
  match a with
  | ⟨0, _⟩ =>
    refine Fin.ext ?_
    show gEnt.start (edgeOf y) I 0 + gEnt.batchCoord (edgeOf y) 0 + gEnt.offCoord (edgeOf y) 0
       = gRow.start y I 0 + gRow.batchCoord y 0 + gRow.offCoord y 0
    rw [GatherDims.batchCoord_eq_zero _ _ _ List.not_mem_nil, GatherDims.batchCoord_eq_zero _ _ _ List.not_mem_nil,
      GatherDims.offCoord_eq_zero _ _ _ (fun h => ((GatherDims.mem_sKept _ _).mp h).1 (List.mem_singleton.mpr rfl)),
      GatherDims.offCoord_eq_zero _ _ _ (fun h => ((GatherDims.mem_sKept _ _).mp h).1 (List.mem_singleton.mpr rfl))]
    simp only [Nat.add_zero]
    unfold GatherDims.start
    rw [dif_pos (show (0 : Fin S100000.rank) ∈ gEnt.startIndexMap from List.mem_singleton.mpr rfl),
      dif_pos (show (0 : Fin S100000x128.rank) ∈ gRow.startIndexMap from List.mem_singleton.mpr rfl)]
    have hsi : gEnt.siIdx (edgeOf y) ⟨List.idxOf (0 : Fin S100000.rank) gEnt.startIndexMap,
          List.idxOf_lt_length_iff.2 (List.mem_singleton.mpr rfl)⟩
        = gRow.siIdx y ⟨List.idxOf (0 : Fin S100000x128.rank) gRow.startIndexMap,
          List.idxOf_lt_length_iff.2 (List.mem_singleton.mpr rfl)⟩ := by
      funext b; refine Fin.ext ?_
      match b with
      | ⟨0, _⟩ => rfl
      | ⟨1, _⟩ => rfl
    rw [hsi]
    rfl

/-- The row gather keeps the column. -/
theorem col_eq {w : Nat} (I : IVec S1600000x1 w) (y : S1600000x128.Idx) :
    (gRow.operandIdx y I 1).val = (y 1).val := by
  show gRow.start y I 1 + gRow.batchCoord y 1 + gRow.offCoord y 1 = _
  rw [GatherDims.batchCoord_eq_zero _ _ _ List.not_mem_nil]
  unfold GatherDims.start
  rw [dif_neg (show ¬ (1 : Fin S100000x128.rank) ∈ gRow.startIndexMap by decide)]
  simp only [Nat.add_zero, Nat.zero_add]
  unfold GatherDims.offCoord
  rw [dif_pos (show (1 : Fin S100000x128.rank) ∈ gRow.sKept by decide)]
  rfl

/-- GATHERING COMMUTES WITH SCALING ROWS: the edges' rows, each scaled by the edge's gathered entry, are the
    gathered rows of the node array scaled row by row. -/
theorem gather_scaled (feat : FVec Ideal S100000x128 .f32) (ns : FVec Ideal S100000 .f32) (I : IVec S1600000x1 32)
    (h1 : S1600000.BroadcastsInDim S1600000x1 (![0] : Fin 1 → Fin S1600000x1.rank))
    (h2 : S1600000x1.BroadcastsInDim S1600000x128 (![0, 1] : Fin 2 → Fin S1600000x128.rank))
    (k1 : S100000.BroadcastsInDim S100000x1 (![0] : Fin 1 → Fin S100000x1.rank))
    (k2 : S100000x1.BroadcastsInDim S100000x128 (![0, 1] : Fin 2 → Fin S100000x128.rank)) :
    mulf (Host.gather gRow feat I)
        (broadcastInDim S1600000x128 ![0, 1] h2 (broadcastInDim S1600000x1 ![0] h1 (Host.gather gEnt ns I)))
      = Host.gather gRow (mulf feat (broadcastInDim S100000x128 ![0, 1] k2 (broadcastInDim S100000x1 ![0] k1 ns))) I := by
  funext y
  show FloatOps.mulf (feat (gRow.operandIdx y I))
        (broadcastInDim S1600000x128 ![0, 1] h2 (broadcastInDim S1600000x1 ![0] h1 (Host.gather gEnt ns I)) y)
      = FloatOps.mulf (feat (gRow.operandIdx y I))
        (broadcastInDim S100000x128 ![0, 1] k2 (broadcastInDim S100000x1 ![0] k1 ns) (gRow.operandIdx y I))
  refine congrArg _ ?_
  rw [broadcastInDim_apply _ h2 _ y (edgeCol y) (fun a => match a with
        | ⟨0, _⟩ => by show (y 0).val = if (1600000 : Nat) = 1 then 0 else (y 0).val; rw [if_neg (by decide)]
        | ⟨1, _⟩ => by show 0 = if (1 : Nat) = 1 then 0 else (y 1).val; rw [if_pos rfl]),
    broadcastInDim_apply _ h1 _ (edgeCol y) (edgeOf y) (fun a => match a with
        | ⟨0, _⟩ => by show (y 0).val = if (1600000 : Nat) = 1 then 0 else (y 0).val; rw [if_neg (by decide)]),
    broadcastInDim_apply _ k2 _ (gRow.operandIdx y I) (nodeCol (gRow.operandIdx y I)) (fun a => match a with
        | ⟨0, _⟩ => by show (gRow.operandIdx y I 0).val = if (100000 : Nat) = 1 then 0 else (gRow.operandIdx y I 0).val; rw [if_neg (by decide)]
        | ⟨1, _⟩ => by show 0 = if (1 : Nat) = 1 then 0 else (gRow.operandIdx y I 1).val; rw [if_pos rfl]),
    broadcastInDim_apply _ k1 _ (nodeCol (gRow.operandIdx y I)) (nodeOf (gRow.operandIdx y I)) (fun a => match a with
        | ⟨0, _⟩ => by show (gRow.operandIdx y I 0).val = if (100000 : Nat) = 1 then 0 else (gRow.operandIdx y I 0).val; rw [if_neg (by decide)])]
  show ns (gEnt.operandIdx (edgeOf y) I) = ns (nodeOf (gRow.operandIdx y I))
  rw [node_eq]

end Cert.KernelIdeal.Hand

end
-- ==== Proof.Agg.lean ====
/-
  The aggregation between two layers, as one function of a node array.

  Between two layers both programs send every node's row along the edges: each edge reads its
  source node's row scaled by that node's out-degree factor, the edges' rows are added onto their
  target nodes (from a zero array), and each node's sum is scaled by the node's in-degree factor.
  A negative source index is first shifted by the number of nodes.  The reference scales the node
  rows and then gathers them; the kernel program gathers the rows and the per-node factors
  separately and scales each edge's row.  Gathering commutes with scaling rows, so the two are the
  same array; everything else is the same operations in the same order.
-/
import proofs.«174308_j60155311947857_1_alg».proof.Proof.Gen.KernelIdeal.Frame
import proofs.«174308_j60155311947857_1_alg».proof.Proof.Gen.ReferenceIdeal.Read
import proofs.«174308_j60155311947857_1_alg».proof.Proof.GatherLaw

noncomputable section

namespace Cert.KernelIdeal.Hand

open Cert.KernelIdeal Cert.KernelIdeal.Gen
open Cert.ReferenceIdeal.Read
open Idealize.ShloMosaic Idealize.ShloMosaic.TcCoe Idealize.SL.Sem Idealize.ShloMosaic.StableHlo Idealize.ShloMosaic.ValueIdx

/-- The aggregation as the reference spells it: the node rows `H` scaled by `ns`, gathered along the
    edges' source indices `src` (a negative one shifted by 100000), added onto the target nodes `dst`
    from zero, and scaled by `nd`. -/
def aggR (H : (⟨Cert.ReferenceIdeal.S100000x128, .f32⟩ : BufTy).Contents (Elt Ideal))
    (ns nd : (⟨Cert.ReferenceIdeal.S100000, .f32⟩ : BufTy).Contents (Elt Ideal))
    (src dst : (⟨Cert.ReferenceIdeal.S1600000, .i32⟩ : BufTy).Contents (Elt Ideal)) :
    (⟨Cert.ReferenceIdeal.S100000x128, .f32⟩ : BufTy).Contents (Elt Ideal) :=
  mulf
    (Host.scatterAdd Cert.ReferenceIdeal.scatter_S100000x128_S1600000x1_S1600000x128_1_0_0_1
      (broadcastInDim Cert.ReferenceIdeal.S100000x128 ![] Cert.ReferenceIdeal.Gen.bcast_S_S100000x128 (constant (F := Ideal) Cert.ReferenceIdeal.S_ .f32 0x00000000#32))
      (broadcastInDim Cert.ReferenceIdeal.S1600000x1 ![0] Cert.ReferenceIdeal.Gen.bcast_S1600000_S1600000x1_0 dst)
      (Host.gather Cert.ReferenceIdeal.gather_S100000x128_S1600000x1_S1600000x128_1_0_n_n_0_1_1128
        (mulf H
          (broadcastInDim Cert.ReferenceIdeal.S100000x128 ![0, 1] Cert.ReferenceIdeal.Gen.bcast_S100000x1_S100000x128_0_1
            (broadcastInDim Cert.ReferenceIdeal.S100000x1 ![0] Cert.ReferenceIdeal.Gen.bcast_S100000_S100000x1_0 ns)))
        (broadcastInDim Cert.ReferenceIdeal.S1600000x1 ![0] Cert.ReferenceIdeal.Gen.bcast_S1600000_S1600000x1_0
          (select
            (cmpi .slt src (broadcastInDim Cert.ReferenceIdeal.S1600000 ![] Cert.ReferenceIdeal.Gen.bcast_S_S1600000 (constantI Cert.ReferenceIdeal.S_ 32 0#32)))
            (addi src (broadcastInDim Cert.ReferenceIdeal.S1600000 ![] Cert.ReferenceIdeal.Gen.bcast_S_S1600000 (constantI Cert.ReferenceIdeal.S_ 32 100000#32)))
            src))))
    (broadcastInDim Cert.ReferenceIdeal.S100000x128 ![0, 1] Cert.ReferenceIdeal.Gen.bcast_S100000x1_S100000x128_0_1
      (broadcastInDim Cert.ReferenceIdeal.S100000x1 ![0] Cert.ReferenceIdeal.Gen.bcast_S100000_S100000x1_0 nd))

section Ref
variable (x0 : (⟨Cert.ReferenceIdeal.S100000x128, .f32⟩ : BufTy).Contents (Elt Ideal)) (x1 : (⟨Cert.ReferenceIdeal.S128x128, .f32⟩ : BufTy).Contents (Elt Ideal))
  (x2 : (⟨Cert.ReferenceIdeal.S2x128x128, .f32⟩ : BufTy).Contents (Elt Ideal)) (x3 x4 x5 : (⟨Cert.ReferenceIdeal.S3x128, .f32⟩ : BufTy).Contents (Elt Ideal))
  (x6 x7 : (⟨Cert.ReferenceIdeal.S1600000, .i32⟩ : BufTy).Contents (Elt Ideal))

/-- The second layer's aggregated input is the aggregation of the first layer's rectified
    normalisation. -/
theorem val_main_v83_agg :
    val_main_v83 (F := Ideal) x0 x1 x3 x4 x5 x6 x7
      = aggR (val_main_v63 (F := Ideal) x0 x1 x3 x4 x5 x6 x7) (val_main_v10 (F := Ideal) x6) (val_main_v12 (F := Ideal) x7) x6 x7 := rfl

/-- The third layer's aggregated input is the aggregation of the second layer's rectified
    normalisation. -/
theorem val_main_v139_agg :
    val_main_v139 (F := Ideal) x0 x1 x2 x3 x4 x5 x6 x7
      = aggR (val_main_v119 (F := Ideal) x0 x1 x2 x3 x4 x5 x6 x7) (val_main_v10 (F := Ideal) x6) (val_main_v12 (F := Ideal) x7) x6 x7 := rfl

end Ref

/-- THE KERNEL PROGRAM'S AGGREGATION IS THE REFERENCE'S: it gathers the rows and the per-node factors
    separately and scales each edge's row; gathering commutes with scaling rows. -/
theorem aggK_eq (H : FVec Ideal S100000x128 .f32) (ns nd : FVec Ideal S100000 .f32) (src dst : IVec S1600000 32) :
    mulf
      (Host.scatterAdd scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 dst)
        (mulf
          (Host.gather gather_S100000x128_S1600000x1_S1600000x128_1_0_n_n_0_1_1128 H
            (broadcastInDim S1600000x1 ![0] bcast_S1600000_S1600000x1_0
              (select
                (cmpi .slt src (broadcastInDim S1600000 ![] bcast_S_S1600000 (constantI S_ 32 0#32)))
                (addi src (broadcastInDim S1600000 ![] bcast_S_S1600000 (constantI S_ 32 100000#32)))
                src)))
          (broadcastInDim S1600000x128 ![0, 1] bcast_S1600000x1_S1600000x128_0_1
            (broadcastInDim S1600000x1 ![0] bcast_S1600000_S1600000x1_0
              (Host.gather gather_S100000_S1600000x1_S1600000_n_0_n_n_0_1_1 ns
                (broadcastInDim S1600000x1 ![0] bcast_S1600000_S1600000x1_0
                  (select
                    (cmpi .slt src (broadcastInDim S1600000 ![] bcast_S_S1600000 (constantI S_ 32 0#32)))
                    (addi src (broadcastInDim S1600000 ![] bcast_S_S1600000 (constantI S_ 32 100000#32)))
                    src)))))))
      (broadcastInDim S100000x128 ![0, 1] bcast_S100000x1_S100000x128_0_1
        (broadcastInDim S100000x1 ![0] bcast_S100000_S100000x1_0 nd))
      = aggR H ns nd src dst := by
  rw [gather_scaled H ns _ bcast_S1600000_S1600000x1_0 bcast_S1600000x1_S1600000x128_0_1
    bcast_S100000_S100000x1_0 bcast_S100000x1_S100000x128_0_1]
  rfl

end Cert.KernelIdeal.Hand

end
-- ==== Proof.LnSpec.lean ====
/-
  Layer normalisation followed by a rectifier, as one function of a node-feature array and two
  single-row parameter arrays: every row is centred by its mean, scaled by the reciprocal square
  root of its variance plus a small constant, multiplied by the scale row, shifted by the shift row,
  and clamped below at zero. The mean and the variance are sums over the row's 128 features divided
  by 128; the square inside the variance is a product of the centred value with itself.

  A row's result depends on that row only, so the function is stated for an array of any number of
  rows: the same formula reads a block of rows and the whole array.
-/
import proofs.«174308_j60155311947857_1_alg».proof.Proof.SpecShapes

noncomputable section

namespace Cert.Spec

open Idealize.ShloMosaic Idealize.ShloMosaic.ValueIdx
open scoped BigOperators

/-- The mean of row `r` of an array of `n` rows: the sum of its 128 features divided by 128. -/
def rowMean {n : Nat} (H : (⟨2, ![n, 128]⟩ : Shape).Idx → EReal) (r : Fin n) : EReal :=
  Ideal.div (∑ k : Fin 128, H (ix2 r k)) (Ideal.ofBits .f32 0x43000000#32)

/-- The variance of row `r`: the sum of the squared centred features divided by 128. -/
def rowVar {n : Nat} (H : (⟨2, ![n, 128]⟩ : Shape).Idx → EReal) (r : Fin n) : EReal :=
  Ideal.div (∑ k : Fin 128, (H (ix2 r k) - rowMean H r) * (H (ix2 r k) - rowMean H r))
    (Ideal.ofBits .f32 0x43000000#32)

/-- The normalised, scaled, shifted and rectified feature `q` of row `r`. -/
def lnReluAt {n : Nat} (H : (⟨2, ![n, 128]⟩ : Shape).Idx → EReal) (g b : SR.Idx → EReal)
    (r : Fin n) (q : Fin 128) : EReal :=
  max ((H (ix2 r q) - rowMean H r) * Ideal.rsqrt (rowVar H r + Ideal.ofBits .f32 0x3727C5AC#32)
        * g (ix2 (0 : Fin 1) q) + b (ix2 (0 : Fin 1) q))
    (Ideal.ofBits .f32 0x00000000#32)

/-- Two arrays that agree on a row have the same mean there. -/
theorem rowMean_congr {n n' : Nat} (H : (⟨2, ![n, 128]⟩ : Shape).Idx → EReal)
    (H' : (⟨2, ![n', 128]⟩ : Shape).Idx → EReal) (r : Fin n) (r' : Fin n')
    (h : ∀ k : Fin 128, H (ix2 r k) = H' (ix2 r' k)) : rowMean H r = rowMean H' r' := by
  unfold rowMean
  rw [Finset.sum_congr rfl fun k _ => h k]

/-- Two arrays that agree on a row have the same variance there. -/
theorem rowVar_congr {n n' : Nat} (H : (⟨2, ![n, 128]⟩ : Shape).Idx → EReal)
    (H' : (⟨2, ![n', 128]⟩ : Shape).Idx → EReal) (r : Fin n) (r' : Fin n')
    (h : ∀ k : Fin 128, H (ix2 r k) = H' (ix2 r' k)) : rowVar H r = rowVar H' r' := by
  unfold rowVar
  rw [rowMean_congr H H' r r' h, Finset.sum_congr rfl fun k _ => by rw [h k]]

/-- Two arrays that agree on a row have the same normalised row. -/
theorem lnReluAt_congr {n n' : Nat} (H : (⟨2, ![n, 128]⟩ : Shape).Idx → EReal)
    (H' : (⟨2, ![n', 128]⟩ : Shape).Idx → EReal) (g b : SR.Idx → EReal) (r : Fin n) (r' : Fin n')
    (h : ∀ k : Fin 128, H (ix2 r k) = H' (ix2 r' k)) (q : Fin 128) :
    lnReluAt H g b r q = lnReluAt H' g b r' q := by
  unfold lnReluAt
  rw [rowMean_congr H H' r r' h, rowVar_congr H H' r r' h, h q]

/-- The same, when the two pairs of parameter rows agree as well. -/
theorem lnReluAt_congr_rows {n n' : Nat} (H : (⟨2, ![n, 128]⟩ : Shape).Idx → EReal)
    (H' : (⟨2, ![n', 128]⟩ : Shape).Idx → EReal) (g b g' b' : SR.Idx → EReal) (r : Fin n) (r' : Fin n')
    (h : ∀ k : Fin 128, H (ix2 r k) = H' (ix2 r' k))
    (hg : ∀ k : Fin 128, g (ix2 (0 : Fin 1) k) = g' (ix2 (0 : Fin 1) k))
    (hb : ∀ k : Fin 128, b (ix2 (0 : Fin 1) k) = b' (ix2 (0 : Fin 1) k)) (q : Fin 128) :
    lnReluAt H g b r q = lnReluAt H' g' b' r' q := by
  unfold lnReluAt
  rw [rowMean_congr H H' r r' h, rowVar_congr H H' r r' h, h q, hg q, hb q]

/-- Layer normalisation and rectifier of the whole node-feature array. -/
def lnRelu (H : SN.Idx → EReal) (g b : SR.Idx → EReal) : SN.Idx → EReal :=
  fun i => lnReluAt (n := 100000) H g b (i 0) (i 1)

/-- The array function read at coordinates. -/
theorem lnRelu_ix2 (H : SN.Idx → EReal) (g b : SR.Idx → EReal) (r : Fin 100000) (q : Fin 128) :
    lnRelu H g b (ix2 r q) = lnReluAt (n := 100000) H g b r q := rfl

end Cert.Spec

end
-- ==== Proof.LnPay.lean ====
/-
  The layer-normalisation kernel body's stored value, read at one element of its block: the
  normalised, scaled, shifted and rectified feature of that row of the block, by the same formula as
  the whole-array function.
-/
import proofs.«174308_j60155311947857_1_alg».proof.Proof.Gen.KernelIdeal.Skeleton
import proofs.«174308_j60155311947857_1_alg».proof.Proof.LnSpec
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-! ## Column forms -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reciprocal square root of a vector at an index is that of the element. -/
theorem rsqrt_apply {s : Shape} {φ : FTy} (a : FVec Ideal s φ) (i : s.Idx) : rsqrt a i = Ideal.rsqrt (a i) := rfl

/-- The sum of a `[5000, 128]` block along its rows' features, read at row `p`: the sum over the
    128 features of that row. -/
theorem laneSum_apply (src : FVec Ideal S5000x128 .f32) (h : S5000x128.Reduces [1] S5000) (hφ : FKind.Formats .f32)
    (hacc : (0x00000000#32 : BitVec FTy.f32.bits) = 0x00000000#32) (p : Fin 5000) :
    multiReduction .add [1] S5000 src 0x00000000#32 h hφ hacc (ix1 p) = ∑ k : Fin 128, src (ix2 p k) := by
  refine (Ideal.multiReduction_add_single src 0x00000000#32 h hφ hacc (ix1 p)).trans ?_
  refine Finset.sum_congr rfl fun k _ => congrArg src (funext fun a => Fin.ext ?_)
  match a with
  | ⟨0, _⟩ => rfl
  | ⟨1, _⟩ => rfl

/-! ## The payload at an element -/

/-- The stored value of the first layer-normalisation region at row `p`, feature `q` of its block. -/
theorem k1_pay1_apply (x0 : Vec Ideal S5000x128 .f32) (g b : Vec Ideal S1x128 .f32) (p : Fin 5000) (q : Fin 128) :
    k1_pay1 (F := Ideal) x0 g b (ix2 p q) = Cert.Spec.lnReluAt (n := 5000) x0 g b p q := by
  unfold k1_pay1
  simp only [shapeCast_self]
  simp only [maximumf_apply, addf_apply, mulf_apply, subf_apply, divf_apply, rsqrt_apply, broadcast_apply,
    broadcastTo_1b_ab_apply, broadcastTo_a1_ab_apply, shapeCast_a_a1_apply]
  rw [laneSum_apply, laneSum_apply]
  simp only [mulf_apply, subf_apply, divf_apply, broadcast_apply, broadcastTo_a1_ab_apply, shapeCast_a_a1_apply]
  rw [laneSum_apply]
  rfl

/-- The second layer-normalisation region stores the same function of its blocks. -/
theorem k3_pay1_eq (x0 : Vec Ideal S5000x128 .f32) (g b : Vec Ideal S1x128 .f32) :
    k3_pay1 (F := Ideal) x0 g b = k1_pay1 (F := Ideal) x0 g b := rfl

/-- The stored value of the second layer-normalisation region at row `p`, feature `q` of its block. -/
theorem k3_pay1_apply (x0 : Vec Ideal S5000x128 .f32) (g b : Vec Ideal S1x128 .f32) (p : Fin 5000) (q : Fin 128) :
    k3_pay1 (F := Ideal) x0 g b (ix2 p q) = Cert.Spec.lnReluAt (n := 5000) x0 g b p q := by
  rw [k3_pay1_eq]; exact k1_pay1_apply x0 g b p q

end Cert.KernelIdeal.Hand

end
-- ==== Proof.Region3.lean ====
/-
  Region 3 of the kernel program, a grid of 20 points over row-blocks of 5000 rows: what its
  write-backs leave in its output array is the layer-normalisation function of the three arrays it
  reads, as the region finds them. Point `t` writes block `t` of that function, because a row's
  result depends on that row only and the two parameter rows are the same at every point; the 20
  blocks cover the array.
-/
import proofs.«174308_j60155311947857_1_alg».proof.Proof.Gen.KernelIdeal.Frame
import proofs.«174308_j60155311947857_1_alg».proof.Proof.LnSpec
import proofs.«174308_j60155311947857_1_alg».proof.Proof.LnPay
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, however spelt. -/
theorem zero_off3 : (![0, 0] : Fin 2 → Nat) = fun _ => 0 := funext fun a => by fin_cases a <;> rfl

/-- The index maps over the grid: the two big windows are at block row `t`, column block 0; the two
    parameter rows at block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The input block at point `t` holds rows `5000 t … 5000 t + 4999` of the input array. -/
theorem iblk3_0_apply (c : Dev nD) (t : Fin cfg3.N) (p : Fin 5000) (k : Fin 128) (r : Fin 100000)
    (hr : r.val = 5000 * t.val + p.val) :
    (iblk3 V c 0 t : Vec Ideal S5000x128 .f32) (ix2 p k) = (V c main_v75 : S100000x128.Idx → EReal) (ix2 r k) := by
  obtain ⟨e0, e1, -⟩ := idx_facts3 t
  unfold iblk3
  rw [View.read_apply]
  show V c main_v75 (((cfg3.win 0).blk t).view.emb (ix2 p k)) = V c main_v75 (ix2 r k)
  refine congrArg _ (funext fun a => Fin.ext ?_)
  match a with
  | ⟨0, _⟩ => show win3_0.index t (0 : Fin 2) * 5000 + 1 * p.val = r.val; rw [e0, hr]; omega
  | ⟨1, _⟩ => show win3_0.index t (1 : Fin 2) * 128 + 1 * k.val = k.val; rw [e1]; omega

/-- The scale row's block is the scale row at every point. -/
theorem iblk3_1_apply (c : Dev nD) (t : Fin cfg3.N) (k : Fin 128) :
    (iblk3 V c 1 t : Vec Ideal S1x128 .f32) (ix2 (0 : Fin 1) k) = (V c main_v78 : S1x128.Idx → EReal) (ix2 (0 : Fin 1) k) := by
  obtain ⟨-, -, e0, e1, -⟩ := idx_facts3 t
  unfold iblk3
  rw [View.read_apply]
  show V c main_v78 (((cfg3.win 1).blk t).view.emb (ix2 (0 : Fin 1) k)) = V c main_v78 (ix2 (0 : Fin 1) k)
  refine congrArg _ (funext fun a => Fin.ext ?_)
  match a with
  | ⟨0, _⟩ => show win3_1.index t (0 : Fin 2) * 1 + 1 * 0 = 0; rw [e0]
  | ⟨1, _⟩ => show win3_1.index t (1 : Fin 2) * 128 + 1 * k.val = k.val; rw [e1]; omega

/-- The shift row's block is the shift row at every point. -/
theorem iblk3_2_apply (c : Dev nD) (t : Fin cfg3.N) (k : Fin 128) :
    (iblk3 V c 2 t : Vec Ideal S1x128 .f32) (ix2 (0 : Fin 1) k) = (V c main_v81 : S1x128.Idx → EReal) (ix2 (0 : Fin 1) k) := by
  obtain ⟨-, -, -, -, e0, e1, -⟩ := idx_facts3 t
  unfold iblk3
  rw [View.read_apply]
  show V c main_v81 (((cfg3.win 2).blk t).view.emb (ix2 (0 : Fin 1) k)) = V c main_v81 (ix2 (0 : Fin 1) k)
  refine congrArg _ (funext fun a => Fin.ext ?_)
  match a with
  | ⟨0, _⟩ => show win3_2.index t (0 : Fin 2) * 1 + 1 * 0 = 0; rw [e0]
  | ⟨1, _⟩ => show win3_2.index t (1 : Fin 2) * 128 + 1 * k.val = k.val; rw [e1]; omega

/-- Element `(p, q)` of the output block at point `t` sits at row `5000 t + p`, feature `q` of the output array. -/
theorem emb3_3 (t : Fin cfg3.N) (p : Fin 5000) (q : Fin 128) (r : Fin 100000) (hr : r.val = 5000 * t.val + p.val) :
    ((cfg3.win 3).blk t).view.emb (ix2 p q) = (ix2 r q : S100000x128.Idx) := by
  obtain ⟨-, -, -, -, -, -, e0, e1⟩ := idx_facts3 t
  refine funext fun a => Fin.ext ?_
  match a with
  | ⟨0, _⟩ => show win3_3.index t (0 : Fin 2) * 5000 + 1 * p.val = r.val; rw [e0, hr]; omega
  | ⟨1, _⟩ => show win3_3.index t (1 : Fin 2) * 128 + 1 * q.val = q.val; rw [e1]; omega

/-- WHAT POINT `t` WRITES BACK is block `t` of the layer-normalisation function of the arrays as the
    region finds them. -/
theorem flushed3_eq (c : Dev nD) (t : Fin cfg3.N) :
    (dat3 (F := Ideal) V c).flushed 3 t
      = ((cfg3.win 3).blk t).view.read (Elt Ideal) (Cert.Spec.lnRelu (V c main_v75) (V c main_v78) (V c main_v81)) := by
  show (cfg3.win 3).cut (grid3.coords t) ((dat3 V c).after 3 t) = _
  rw [after3_3]
  unfold out3_3
  rw [View.canon_unit_zero zero_off3]
  simp only [View.ld_unit_zero (S := S5000x128) zero_off3, View.ld_unit_zero (S := S1x128) zero_off3]
  funext j
  obtain ⟨p, q, rfl⟩ : ∃ (p : Fin 5000) (q : Fin 128), j = ix2 p q := ⟨j 0, j 1, eq_ix2 j⟩
  have ht : t.val < 20 := by have h := t.isLt; have hN : cfg3.N = 20 := N_3; omega
  have hp : p.val < 5000 := p.isLt
  obtain ⟨r, hr⟩ : ∃ r : Fin 100000, r.val = 5000 * t.val + p.val := ⟨⟨5000 * t.val + p.val, by omega⟩, rfl⟩
  show k3_pay1 (iblk3 V c 0 t) (iblk3 V c 1 t) (iblk3 V c 2 t) (ix2 p q)
    = Cert.Spec.lnRelu (V c main_v75) (V c main_v78) (V c main_v81) (((cfg3.win 3).blk t).view.emb (ix2 p q))
  rw [emb3_3 t p q r hr, Cert.Spec.lnRelu_ix2]
  refine (k3_pay1_apply (iblk3 V c 0 t) (iblk3 V c 1 t) (iblk3 V c 2 t) p q).trans ?_
  exact Cert.Spec.lnReluAt_congr_rows _ _ _ _ _ _ p r (fun k => iblk3_0_apply V c t p k r hr)
    (fun k => iblk3_1_apply V c t k) (fun k => iblk3_2_apply V c t k) q

/-- An index of the output array is in point `t`'s block iff each coordinate is in the block's range. -/
theorem mem_blk3_3 (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v82).slice (win3_3.rect t)).set ↔ _
  rw [View.set_slice_whole, Rect.mem_set_unit]
  exact Iff.rfl

/-- Every row of the output array is in some point's block: row `r` in block `r / 5000`. -/
theorem cover3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  have htv : t.val = (i 0).val / 5000 := rfl
  obtain ⟨-, -, -, -, -, -, e0, e1⟩ := idx_facts3 t
  refine ⟨t, flush3_3 t, ?_⟩
  rw [mem_blk3_3]
  intro a
  match a with
  | ⟨0, _⟩ => show win3_3.index t (0 : Fin 2) * 5000 ≤ (i 0).val ∧ (i 0).val < win3_3.index t (0 : Fin 2) * 5000 + 5000; rw [e0, htv]; omega
  | ⟨1, _⟩ => show win3_3.index t (1 : Fin 2) * 128 ≤ (i 1).val ∧ (i 1).val < win3_3.index t (1 : Fin 2) * 128 + 128; rw [e1]; omega

/-- THE OUTPUT ARRAY after the region's write-backs: the layer-normalisation function of the input
    array and the two parameter rows as the region finds them. -/
theorem region3_out (c : Dev nD) :
    (dat3 (F := Ideal) V c).arrAt 3 cfg3.N = Cert.Spec.lnRelu (V c main_v75) (V c main_v78) (V c main_v81) :=
  (dat3 (F := Ideal) V c).arrAt_eq_of_cover 3 (Cert.Spec.lnRelu (V c main_v75) (V c main_v78) (V c main_v81))
    (fun t _ => flushed3_eq V c t) (cover3)

end Cert.KernelIdeal.Hand

end
-- ==== Proof.LnRef.lean ====
/-
  The reference program's layer normalisation and rectifier, as one term of the array it normalises
  and the two parameter vectors, and that term read at an index: it is the layer-normalisation
  function of the array and of the two vectors read as single-row arrays.
-/
import proofs.«174308_j60155311947857_1_alg».proof.Proof.Gen.ReferenceIdeal.Read
import proofs.«174308_j60155311947857_1_alg».proof.Proof.LnSpec

noncomputable section

namespace Cert.RefHand

open Cert.ReferenceIdeal Cert.ReferenceIdeal.Gen Idealize.ShloMosaic Idealize.ShloMosaic.ValueIdx Idealize.ShloMosaic.StableHlo
open scoped BigOperators

/-! ## The operations, over the array they normalise -/

/-- The column of row means: each row's sum, as a column, divided by 128. -/
def lnMean (H : FVec Ideal S100000x128 .f32) : FVec Ideal S100000x1 .f32 :=
  Host.divf
    (broadcastInDim S100000x1 ![0] bcast_S100000_S100000x1_0
      (Host.reduceAdd H (Read.val_main_cst_8 (F := Ideal)) reducesTo_S100000x128_S100000_d1 h_S_))
    (Read.val_main_v41 (F := Ideal))

/-- The array centred row by row. -/
def lnCentred (H : FVec Ideal S100000x128 .f32) : FVec Ideal S100000x128 .f32 :=
  subf H (broadcastInDim S100000x128 ![0, 1] bcast_S100000x1_S100000x128_0_1 (lnMean H))

/-- The column of row variances: each row's sum of squared centred values, as a column, divided by 128. -/
def lnVar (H : FVec Ideal S100000x128 .f32) : FVec Ideal S100000x1 .f32 :=
  Host.divf
    (broadcastInDim S100000x1 ![0] bcast_S100000_S100000x1_0
      (Host.reduceAdd (mulf (lnCentred H) (lnCentred H)) (Read.val_main_cst_10 (F := Ideal))
        reducesTo_S100000x128_S100000_d1 h_S_))
    (Read.val_main_v48 (F := Ideal))

/-- The normalised array scaled by `gv`, shifted by `bv` and clamped below at zero. -/
def lnTerm (H : FVec Ideal S100000x128 .f32) (gv bv : FVec Ideal S128 .f32) : FVec Ideal S100000x128 .f32 :=
  maximumf
    (addf
      (mulf
        (mulf (lnCentred H)
          (broadcastInDim S100000x128 ![0, 1] bcast_S100000x1_S100000x128_0_1
            (Host.rsqrt (addf (lnVar H) (Read.val_main_v52 (F := Ideal))))))
        (broadcastInDim S100000x128 ![0, 1] bcast_S1x128_S100000x128_0_1
          (broadcastInDim S1x128 ![1] bcast_S128_S1x128_1 gv)))
      (broadcastInDim S100000x128 ![0, 1] bcast_S1x128_S100000x128_0_1
        (broadcastInDim S1x128 ![1] bcast_S128_S1x128_1 bv)))
    (Read.val_main_call2_v0 (F := Ideal))

/-! ## The reference's two normalisations are this term -/

/-- The first layer's rectified normalisation is the term at the first layer's pre-activation and
    parameter vectors. -/
theorem v63_eq_lnTerm (x0 : (⟨S100000x128, .f32⟩ : BufTy).Contents (Elt Ideal)) (x1 : (⟨S128x128, .f32⟩ : BufTy).Contents (Elt Ideal))
    (x3 x4 x5 : (⟨S3x128, .f32⟩ : BufTy).Contents (Elt Ideal)) (x6 x7 : (⟨S1600000, .i32⟩ : BufTy).Contents (Elt Ideal)) :
    Read.val_main_v63 (F := Ideal) x0 x1 x3 x4 x5 x6 x7
      = lnTerm (Read.val_main_v34 (F := Ideal) x0 x1 x3 x6 x7) (Read.val_main_v36 (F := Ideal) x4) (Read.val_main_v38 (F := Ideal) x5) := rfl

/-- The second layer's rectified normalisation is the term at the second layer's pre-activation and
    parameter vectors. -/
theorem v119_eq_lnTerm (x0 : (⟨S100000x128, .f32⟩ : BufTy).Contents (Elt Ideal)) (x1 : (⟨S128x128, .f32⟩ : BufTy).Contents (Elt Ideal))
    (x2 : (⟨S2x128x128, .f32⟩ : BufTy).Contents (Elt Ideal))
    (x3 x4 x5 : (⟨S3x128, .f32⟩ : BufTy).Contents (Elt Ideal)) (x6 x7 : (⟨S1600000, .i32⟩ : BufTy).Contents (Elt Ideal)) :
    Read.val_main_v119 (F := Ideal) x0 x1 x2 x3 x4 x5 x6 x7
      = lnTerm (Read.val_main_v90 (F := Ideal) x0 x1 x2 x3 x4 x5 x6 x7) (Read.val_main_v92 (F := Ideal) x4) (Read.val_main_v94 (F := Ideal) x5) := rfl

/-! ## Layout operations at coordinates -/

/-- A vector of 100000 entries made a column reads, at `(r, u)`, the vector at `r`. -/
theorem col_apply {α : Type} (y : S100000.Idx → α) (r : Fin 100000) (u : Fin 1) :
    broadcastInDim S100000x1 ![0] bcast_S100000_S100000x1_0 y (ix2 r u) = y (ix1 r) :=
  broadcastInDim_apply _ bcast_S100000_S100000x1_0 y (ix2 r u) (ix1 r) (fun a => match a with
    | ⟨0, _⟩ => by show r.val = if (100000 : Nat) = 1 then 0 else r.val; rw [if_neg (by decide)])

/-- A column broadcast over 128 features reads, at `(r, q)`, the column at row `r`. -/
theorem colBcast_apply {α : Type} (y : S100000x1.Idx → α) (r : Fin 100000) (q : Fin 128) :
    broadcastInDim S100000x128 ![0, 1] bcast_S100000x1_S100000x128_0_1 y (ix2 r q) = y (ix2 r (0 : Fin 1)) :=
  broadcastInDim_apply _ bcast_S100000x1_S100000x128_0_1 y (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])

/-- A single row broadcast over 100000 rows reads, at `(r, q)`, the row at feature `q`. -/
theorem rowBcast_apply {α : Type} (y : S1x128.Idx → α) (r : Fin 100000) (q : Fin 128) :
    broadcastInDim S100000x128 ![0, 1] bcast_S1x128_S100000x128_0_1 y (ix2 r q) = y (ix2 (0 : Fin 1) q) :=
  broadcastInDim_apply _ bcast_S1x128_S100000x128_0_1 y (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])

/-- A vector of 128 entries made a single row reads, at `(u, q)`, the vector at `q`. -/
theorem vecRow_apply {α : Type} (y : S128.Idx → α) (u : Fin 1) (q : Fin 128) :
    broadcastInDim S1x128 ![1] bcast_S128_S1x128_1 y (ix2 u q) = y (ix1 q) :=
  broadcastInDim_apply _ bcast_S128_S1x128_1 y (ix2 u q) (ix1 q) (fun a => match a with
    | ⟨0, _⟩ => by show q.val = if (128 : Nat) = 1 then 0 else q.val; rw [if_neg (by decide)])

/-- The host's sum along the features from a zero initial value, read at row `r`: the sum over the
    row's 128 features. -/
theorem rowSum_apply (y : FVec Ideal S100000x128 .f32) (init : S_.Idx → EReal)
    (hinit : init (Shape.Idx.first h_S_) = 0) (r : Fin 100000) :
    Host.reduceAdd (F := Ideal) y init reducesTo_S100000x128_S100000_d1 h_S_ (ix1 r) = ∑ k : Fin 128, y (ix2 r k) := by
  simp only [Host.reduceAdd, Ideal.hostReduceAdd_def]
  rw [Ideal.hostReduceAdd_single reducesTo_S100000x128_S100000_d1 (by decide), hinit, zero_add]
  refine Finset.sum_congr rfl fun k _ => congrArg y (funext fun a => Fin.ext ?_)
  match a with
  | ⟨0, _⟩ => rfl
  | ⟨1, _⟩ => rfl

/-! ## The operations at coordinates -/

/-- The mean column at row `r` is the row's mean. -/
theorem lnMean_apply (H : FVec Ideal S100000x128 .f32) (r : Fin 100000) (u : Fin 1) :
    lnMean H (ix2 r u) = Cert.Spec.rowMean (n := 100000) H r := by
  unfold lnMean
  show Ideal.div _ _ = _
  rw [col_apply, rowSum_apply _ _ (by rw [Read.val_main_cst_8_apply]; exact Ideal.ofBits_zero_f32),
    Read.val_main_v41_apply, Read.val_main_cst_9_apply]
  rfl

/-- The centred array at `(r, q)` is the element minus its row's mean. -/
theorem lnCentred_apply (H : FVec Ideal S100000x128 .f32) (r : Fin 100000) (q : Fin 128) :
    lnCentred H (ix2 r q) = H (ix2 r q) - Cert.Spec.rowMean (n := 100000) H r := by
  unfold lnCentred
  rw [subf_apply, colBcast_apply, lnMean_apply]

/-- The variance column at row `r` is the row's variance. -/
theorem lnVar_apply (H : FVec Ideal S100000x128 .f32) (r : Fin 100000) (u : Fin 1) :
    lnVar H (ix2 r u) = Cert.Spec.rowVar (n := 100000) H r := by
  unfold lnVar
  show Ideal.div _ _ = _
  rw [col_apply, rowSum_apply _ _ (by rw [Read.val_main_cst_10_apply]; exact Ideal.ofBits_zero_f32),
    Read.val_main_v48_apply, Read.val_main_cst_11_apply]
  simp only [mulf_apply, lnCentred_apply]
  rfl

/-- THE TERM IS THE FUNCTION: the reference's operations, read at every index, are the
    layer-normalisation function of the array and of the two vectors read as single-row arrays. -/
theorem lnRelu_ref (H : FVec Ideal S100000x128 .f32) (gv bv : FVec Ideal S128 .f32) :
    lnTerm H gv bv = Cert.Spec.lnRelu H (Cert.Spec.rowOf gv) (Cert.Spec.rowOf bv) := by
  funext i
  obtain ⟨r, q, rfl⟩ : ∃ (r : Fin 100000) (q : Fin 128), i = ix2 r q := ⟨i 0, i 1, eq_ix2 i⟩
  rw [Cert.Spec.lnRelu_ix2]
  unfold lnTerm
  rw [maximumf_apply, addf_apply, mulf_apply, mulf_apply, lnCentred_apply, colBcast_apply, rowBcast_apply,
    rowBcast_apply, vecRow_apply, vecRow_apply, Read.val_main_call2_v0_apply, Read.val_main_call2_cst_apply]
  show max ((_ - _) * Ideal.rsqrt (lnVar H (ix2 r (0 : Fin 1)) + Read.val_main_v52 (F := Ideal) (ix2 r (0 : Fin 1))) * _ + _) _ = _
  rw [lnVar_apply, Read.val_main_v52_apply, Read.val_main_cst_12_apply]
  rfl

/-- The first layer's rectified normalisation, as the function of its pre-activation and parameters. -/
theorem val_main_v63_ln (x0 : (⟨S100000x128, .f32⟩ : BufTy).Contents (Elt Ideal)) (x1 : (⟨S128x128, .f32⟩ : BufTy).Contents (Elt Ideal))
    (x3 x4 x5 : (⟨S3x128, .f32⟩ : BufTy).Contents (Elt Ideal)) (x6 x7 : (⟨S1600000, .i32⟩ : BufTy).Contents (Elt Ideal)) :
    Read.val_main_v63 (F := Ideal) x0 x1 x3 x4 x5 x6 x7
      = Cert.Spec.lnRelu (Read.val_main_v34 (F := Ideal) x0 x1 x3 x6 x7) (Cert.Spec.rowOf (Read.val_main_v36 (F := Ideal) x4))
          (Cert.Spec.rowOf (Read.val_main_v38 (F := Ideal) x5)) :=
  (v63_eq_lnTerm x0 x1 x3 x4 x5 x6 x7).trans (lnRelu_ref _ _ _)

/-- The second layer's rectified normalisation, as the function of its pre-activation and parameters. -/
theorem val_main_v119_ln (x0 : (⟨S100000x128, .f32⟩ : BufTy).Contents (Elt Ideal)) (x1 : (⟨S128x128, .f32⟩ : BufTy).Contents (Elt Ideal))
    (x2 : (⟨S2x128x128, .f32⟩ : BufTy).Contents (Elt Ideal))
    (x3 x4 x5 : (⟨S3x128, .f32⟩ : BufTy).Contents (Elt Ideal)) (x6 x7 : (⟨S1600000, .i32⟩ : BufTy).Contents (Elt Ideal)) :
    Read.val_main_v119 (F := Ideal) x0 x1 x2 x3 x4 x5 x6 x7
      = Cert.Spec.lnRelu (Read.val_main_v90 (F := Ideal) x0 x1 x2 x3 x4 x5 x6 x7) (Cert.Spec.rowOf (Read.val_main_v92 (F := Ideal) x4))
          (Cert.Spec.rowOf (Read.val_main_v94 (F := Ideal) x5)) :=
  (v119_eq_lnTerm x0 x1 x2 x3 x4 x5 x6 x7).trans (lnRelu_ref _ _ _)

end Cert.RefHand

end
-- ==== Proof.Layer2.lean ====
/-
  The second layer-normalisation region in the run of @main: the arrays it finds are the second
  layer's pre-activation and the third rows of the scale and shift tables, read as single-row
  arrays, so what it leaves in its output array is the reference's second rectified normalisation.
-/
import proofs.«174308_j60155311947857_1_alg».proof.Proof.Keep
import proofs.«174308_j60155311947857_1_alg».proof.Proof.Region3
import proofs.«174308_j60155311947857_1_alg».proof.Proof.LnRef
import Idealize.ShloMosaic.Lib.ValueLayout

noncomputable section

namespace Cert.KernelIdeal.Hand

open Cert.KernelIdeal Cert.KernelIdeal.Gen
open Cert.ReferenceIdeal.Read
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- A vector of 128 entries cast to a single row is the vector read as a single-row array. -/
theorem rowOf_cast (v : Cert.Spec.SV.Idx → EReal) (h : Cert.Spec.SV.ShapeCasts Cert.Spec.SR) :
    shapeCast Cert.Spec.SR v h = Cert.Spec.rowOf v := by
  funext j
  obtain ⟨u, i, rfl⟩ : ∃ (u : Fin 1) (i : Fin 128), j = ix2 u i := ⟨j 0, j 1, eq_ix2 j⟩
  rw [shapeCast_a_1a_apply]
  rfl

/-- The fifth argument at region 2's exit is as launched. -/
theorem W10_arg4 : W10 m ρ c (Proc.devRef .tc main_arg4) = m ((c : Thread nD τ).loc main_arg4) :=
  (W10_of_ne m ρ c main_arg4 (by decide)).trans ((W9_of_W7 m ρ c main_arg4 (by decide) (by unwritten)).trans
    ((W7_of_W5 m ρ c main_arg4 (by decide) (by unwritten)).trans (W5_arg4 m ρ c)))

/-- The sixth argument at region 2's exit is as launched. -/
theorem W10_arg5 : W10 m ρ c (Proc.devRef .tc main_arg5) = m ((c : Thread nD τ).loc main_arg5) :=
  (W10_of_ne m ρ c main_arg5 (by decide)).trans ((W9_of_W7 m ρ c main_arg5 (by decide) (by unwritten)).trans
    ((W7_of_W5 m ρ c main_arg5 (by decide) (by unwritten)).trans (W5_arg5 m ρ c)))

/-- The scale row at region 3's entry: the third row of the scale table, as a single-row array. -/
theorem W11_v78 : W11 m ρ c (Proc.devRef .tc main_v78)
    = Cert.Spec.rowOf (val_main_v92 (F := Ideal) (m ((c : Thread nD τ).loc main_arg4))) := by
  dsimp only [W11, hostOps3]
  after_results_simp
  rw [W10_arg4]
  exact rowOf_cast _ _

/-- The shift row at region 3's entry: the third row of the shift table, as a single-row array. -/
theorem W11_v81 : W11 m ρ c (Proc.devRef .tc main_v81)
    = Cert.Spec.rowOf (val_main_v94 (F := Ideal) (m ((c : Thread nD τ).loc main_arg5))) := by
  dsimp only [W11, hostOps3]
  after_results_simp
  rw [W10_arg5]
  exact rowOf_cast _ _

/-- The stretch of host operations before region 3 does not write region 2's output. -/
theorem W11_v75 : W11 m ρ c (Proc.devRef .tc main_v75) = W10 m ρ c (Proc.devRef .tc main_v75) :=
  StableHlo.after_of_forall_not_mem _ _ (by unwritten)

/-- WHAT REGION 3 LEAVES in its output array, given what region 2 left in its own: the reference's
    second rectified normalisation. -/
theorem W12_v82
    (hW10 : W10 m ρ c (Proc.devRef .tc main_v75)
      = val_main_v90 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))) :
    W12 m ρ c (Proc.devRef .tc main_v82)
      = val_main_v119 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine (W12_arr m ρ c 3).trans ((region3_out (V11 m ρ) c).trans ?_)
  show Cert.Spec.lnRelu (W11 m ρ c (Proc.devRef .tc main_v75)) (W11 m ρ c (Proc.devRef .tc main_v78))
      (W11 m ρ c (Proc.devRef .tc main_v81)) = _
  rw [W11_v75, hW10, W11_v78, W11_v81]
  exact (Cert.RefHand.val_main_v119_ln _ _ _ _ _ _ _ _).symm

end Cert.KernelIdeal.Hand

end
-- ==== Proof.Entry1.lean ====
/-
  The first region in the run of @main: the arrays it finds are the first layer's aggregated input
  features, the first weight matrix and the first row of the bias table as a single-row array, so
  what it leaves in its output array is the reference's first dense stage. The two per-node degree
  factors that the aggregation scales by are taken as given.
-/
import proofs.«174308_j60155311947857_1_alg».proof.Proof.Keep
import proofs.«174308_j60155311947857_1_alg».proof.Proof.Region0
import proofs.«174308_j60155311947857_1_alg».proof.Proof.DenseRef
import proofs.«174308_j60155311947857_1_alg».proof.Proof.Agg
import proofs.«174308_j60155311947857_1_alg».proof.Proof.Layer2

noncomputable section

namespace Cert.KernelIdeal.Hand

open Cert.KernelIdeal Cert.KernelIdeal.Gen
open Cert.ReferenceIdeal.Read
open Idealize.ShloMosaic Idealize.ShloMosaic.TcCoe Idealize.SL.Sem Idealize.ShloMosaic.StableHlo Idealize.ShloMosaic.ValueIdx

/-! ## The last stretch of host operations before the first region, read at any contents -/

section Stretch
variable (V : Valuation τ sig (Elt Ideal))

/-- The out-degree factor: the clipped out-degree to the power minus one half. -/
theorem ops0_4_v10 : StableHlo.after (hostOps0_4 (F := Ideal)) V (Proc.devRef .tc main_v10)
    = Host.powf (V (Proc.devRef .tc main_v4))
        (broadcastInDim S100000 ![] bcast_S_S100000 (constant (F := Ideal) S_ .f32 0xBF000000#32)) := by
  dsimp only [hostOps0_4]
  after_results_simp

/-- The in-degree factor: the clipped in-degree to the power minus one half. -/
theorem ops0_4_v12 : StableHlo.after (hostOps0_4 (F := Ideal)) V (Proc.devRef .tc main_v12)
    = Host.powf (V (Proc.devRef .tc main_v8))
        (broadcastInDim S100000 ![] bcast_S_S100000 (constant (F := Ideal) S_ .f32 0xBF000000#32)) := by
  dsimp only [hostOps0_4]
  after_results_simp

/-- The bias row: the first row of the bias table, flattened and cast back to a single row. -/
theorem ops0_4_v38 : StableHlo.after (hostOps0_4 (F := Ideal)) V (Proc.devRef .tc main_v38)
    = shapeCast S1x128
        (shapeCast S128 (extractStridedSlice S1x128 ![0, 0] (V (Proc.devRef .tc main_arg3)) slices_S3x128_S1x128_0_0)
          shapeCasts_S1x128_S128)
        shapeCasts_S128_S1x128 := by
  dsimp only [hostOps0_4]
  after_results_simp
  rfl

/-- The aggregated input features: the aggregation of the first argument with the two degree factors. -/
theorem ops0_4_v35 : StableHlo.after (hostOps0_4 (F := Ideal)) V (Proc.devRef .tc main_v35)
    = aggR (V (Proc.devRef .tc main_arg0)) (StableHlo.after (hostOps0_4 (F := Ideal)) V (Proc.devRef .tc main_v10))
        (StableHlo.after (hostOps0_4 (F := Ideal)) V (Proc.devRef .tc main_v12))
        (V (Proc.devRef .tc main_arg6)) (V (Proc.devRef .tc main_arg7)) := by
  rw [ops0_4_v10 V, ops0_4_v12 V]
  dsimp only [hostOps0_4]
  after_results_simp
  exact aggK_eq _ _ _ _ _

end Stretch

variable (m : (ℓ : Loc nD τ sig) → Buf (Elt Ideal) ℓ) (ρ : Dev nD → PrngReg) (c : Dev nD)

/-! ## The arguments before the last leading stretch -/

/-- Before the last leading stretch a buffer that none of the four stretches before it writes holds
    its launch contents. -/
theorem W4_launch (r : Ref sig .tc)
    (h0 : ∀ op ∈ (hostOps0 : List (HloOp τ sig (Elt Ideal))), Proc.devRef .tc r ∉ op.writes)
    (h1 : ∀ op ∈ (hostOps0_1 : List (HloOp τ sig (Elt Ideal))), Proc.devRef .tc r ∉ op.writes)
    (h2 : ∀ op ∈ (hostOps0_2 : List (HloOp τ sig (Elt Ideal))), Proc.devRef .tc r ∉ op.writes)
    (h3 : ∀ op ∈ (hostOps0_3 : List (HloOp τ sig (Elt Ideal))), Proc.devRef .tc r ∉ op.writes) :
    W4 m ρ c (Proc.devRef .tc r) = m ((c : Thread nD τ).loc r) :=
  (StableHlo.after_of_forall_not_mem _ _ h3).trans ((StableHlo.after_of_forall_not_mem _ _ h2).trans
    ((StableHlo.after_of_forall_not_mem _ _ h1).trans
      (StableHlo.after_of_forall_not_mem (b := Proc.devRef .tc r) hostOps0 (W0 m ρ c) h0)))

theorem W4_arg0 : W4 m ρ c (Proc.devRef .tc main_arg0) = m ((c : Thread nD τ).loc main_arg0) :=
  W4_launch m ρ c main_arg0 (by unwritten) (by unwritten) (by unwritten) (by unwritten)
theorem W4_arg3 : W4 m ρ c (Proc.devRef .tc main_arg3) = m ((c : Thread nD τ).loc main_arg3) :=
  W4_launch m ρ c main_arg3 (by unwritten) (by unwritten) (by unwritten) (by unwritten)
theorem W4_arg6 : W4 m ρ c (Proc.devRef .tc main_arg6) = m ((c : Thread nD τ).loc main_arg6) :=
  W4_launch m ρ c main_arg6 (by unwritten) (by unwritten) (by unwritten) (by unwritten)
theorem W4_arg7 : W4 m ρ c (Proc.devRef .tc main_arg7) = m ((c : Thread nD τ).loc main_arg7) :=
  W4_launch m ρ c main_arg7 (by unwritten) (by unwritten) (by unwritten) (by unwritten)

/-! ## The first region's input arrays -/

/-- The bias row at the first region's entry: the first row of the bias table, as a single-row array. -/
theorem W5_v38 : W5 m ρ c (Proc.devRef .tc main_v38)
    = Cert.Spec.rowOf (val_main_v14 (F := Ideal) (m ((c : Thread nD τ).loc main_arg3))) := by
  show StableHlo.after (hostOps0_4 (F := Ideal)) (W4 m ρ c) (Proc.devRef .tc main_v38) = _
  rw [ops0_4_v38 (W4 m ρ c), W4_arg3]
  exact rowOf_cast _ _

/-- The reference's first aggregated input is the aggregation of the first argument with the two
    degree factors. -/
theorem val_main_v30_agg (x0 : (⟨Cert.ReferenceIdeal.S100000x128, .f32⟩ : BufTy).Contents (Elt Ideal))
    (x6 x7 : (⟨Cert.ReferenceIdeal.S1600000, .i32⟩ : BufTy).Contents (Elt Ideal)) :
    val_main_v30 (F := Ideal) x0 x6 x7
      = aggR x0 (val_main_v10 (F := Ideal) x6) (val_main_v12 (F := Ideal) x7) x6 x7 := rfl

/-- The aggregated input features at the first region's entry, given the two degree factors there. -/
theorem W5_v35_of
    (hv10 : W5 m ρ c (Proc.devRef .tc main_v10) = val_main_v10 (F := Ideal) (m ((c : Thread nD τ).loc main_arg6)))
    (hv12 : W5 m ρ c (Proc.devRef .tc main_v12) = val_main_v12 (F := Ideal) (m ((c : Thread nD τ).loc main_arg7))) :
    W5 m ρ c (Proc.devRef .tc main_v35) = val_main_v30 (F := Ideal) (m ((c : Thread nD τ).loc main_arg0)) (m ((c : Thread nD τ).loc main_arg6)) (m ((c : Thread nD τ).loc main_arg7)) := by
  show StableHlo.after (hostOps0_4 (F := Ideal)) (W4 m ρ c) (Proc.devRef .tc main_v35) = _
  rw [ops0_4_v35 (W4 m ρ c)]
  show aggR (W4 m ρ c (Proc.devRef .tc main_arg0)) (W5 m ρ c (Proc.devRef .tc main_v10))
      (W5 m ρ c (Proc.devRef .tc main_v12)) (W4 m ρ c (Proc.devRef .tc main_arg6)) (W4 m ρ c (Proc.devRef .tc main_arg7)) = _
  rw [hv10, hv12, W4_arg0, W4_arg6, W4_arg7]
  exact (val_main_v30_agg _ _ _).symm

/-- WHAT THE FIRST REGION LEAVES in its output array, given the two degree factors at its entry: the
    reference's first dense stage. -/
theorem W6_v39_of
    (hv10 : W5 m ρ c (Proc.devRef .tc main_v10) = val_main_v10 (F := Ideal) (m ((c : Thread nD τ).loc main_arg6)))
    (hv12 : W5 m ρ c (Proc.devRef .tc main_v12) = val_main_v12 (F := Ideal) (m ((c : Thread nD τ).loc main_arg7))) :
    W6 m ρ c (Proc.devRef .tc main_v39)
      = val_main_v34 (F := Ideal) (m ((c : Thread nD τ).loc main_arg0)) (m ((c : Thread nD τ).loc main_arg1)) (m ((c : Thread nD τ).loc main_arg3)) (m ((c : Thread nD τ).loc main_arg6)) (m ((c : Thread nD τ).loc main_arg7)) := by
  refine (W6_arr m ρ c 3).trans ((region0_out (V5 m ρ) c).trans ?_)
  show Cert.Spec.dense (W5 m ρ c (Proc.devRef .tc main_v35)) (W5 m ρ c (Proc.devRef .tc main_arg1))
      (W5 m ρ c (Proc.devRef .tc main_v38)) = _
  rw [W5_v35_of m ρ c hv10 hv12, W5_arg1, W5_v38]
  exact (Cert.RefHand.val_main_v34_dense _ _ _ _ _).symm

end Cert.KernelIdeal.Hand

end
-- ==== Proof.Entry0.lean ====
/-
  The two degree normalisations, and with them what the first region leaves.

  For each node the program counts the edges leaving it (respectively entering it) by a scatter-add of ones,
  clamps the count below at one, and raises it to the power -1/2. The clamp is a small function of the program,
  inlined: two stretches of three operations each, which read and write their buffers through a transport along
  the buffer's type; at a literal buffer the transport is the identity. Read at ANY contents `V` of the buffers
  such a stretch finds, its result is the maximum of the broadcast constant it finds and the count it finds; the
  counts themselves and the power are plain host operations. Each value is the reference program's stage of the
  same name: the reference performs the same operations in the same order.
-/
import proofs.«174308_j60155311947857_1_alg».proof.Proof.Keep
import proofs.«174308_j60155311947857_1_alg».proof.Proof.Entry1
import proofs.«174308_j60155311947857_1_alg».proof.Proof.Gen.ReferenceIdeal.Read
import Idealize.ShloMosaic.Lib.ValueLayout
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal.Read

/-- A flat vector of 128 entries cast to a single row is that vector read along the row. -/
theorem row_cast (v : Cert.Spec.SV.Idx → EReal) (h : Cert.Spec.SV.ShapeCasts Cert.Spec.SR) :
    shapeCast Cert.Spec.SR v h = Cert.Spec.rowOf v := by
  funext j
  obtain ⟨u, i, rfl⟩ : ∃ (u : Fin 1) (i : Fin 128), j = ix2 u i := ⟨j 0, j 1, eq_ix2 j⟩
  rw [shapeCast_a_1a_apply]
  rfl

/-- A value written through a typed reference's transport and read back through it is the value. -/
theorem ofBuf_toBuf {T : BufTy} (x : TRef sig T) (v : T.Contents (Elt Ideal)) : x.ofBuf (x.toBuf v) = v := by
  obtain ⟨r, h, a, b⟩ := x
  subst h
  rfl

/-- The clamp of the outgoing counts, read at any contents it finds: the maximum of the constant and the counts. -/
theorem clamp_out (V : Valuation τ sig (Elt Ideal)) :
    StableHlo.after (hostOps0_1 (F := Ideal)) V (Proc.devRef .tc main_v4)
      = (maximumf (F := Ideal) (φ := .f32)
          (broadcastInDim S100000 ![] bcast_S_S100000 (id (V (Proc.devRef .tc main_cst_1) : FVec Ideal S_ .f32)))
          (V (Proc.devRef .tc main_v3) : FVec Ideal S100000 .f32) : FVec Ideal S100000 .f32) := by
  dsimp only [hostOps0_1]
  after_results_simp
  simp only [ofBuf_toBuf]
  rfl

/-- The clamp of the incoming counts, read at any contents it finds. -/
theorem clamp_in (V : Valuation τ sig (Elt Ideal)) :
    StableHlo.after (hostOps0_3 (F := Ideal)) V (Proc.devRef .tc main_v8)
      = (maximumf (F := Ideal) (φ := .f32)
          (broadcastInDim S100000 ![] bcast_S_S100000 (id (V (Proc.devRef .tc main_cst_3) : FVec Ideal S_ .f32)))
          (V (Proc.devRef .tc main_v7) : FVec Ideal S100000 .f32) : FVec Ideal S100000 .f32) := by
  dsimp only [hostOps0_3]
  after_results_simp
  simp only [ofBuf_toBuf]
  rfl

variable (m : (ℓ : Loc nD τ sig) → Buf (Elt Ideal) ℓ) (ρ : Dev nD → PrngReg) (c : Dev nD)

/-- The outgoing counts and the clamp's constant, after the first stretch. -/
theorem W1_v3 : W1 m ρ c (Proc.devRef .tc main_v3) = val_main_v3 (F := Ideal) (m ((c : Thread nD τ).loc main_arg6)) := by
  dsimp only [W1, W0, hostOps0]
  after_results_simp
  unfold val_main_v3 val_main_v1 val_main_v2 val_main_v0 val_main_cst val_main_cst_0
  rfl
theorem W1_cst_1 : W1 m ρ c (Proc.devRef .tc main_cst_1) = val_main_cst_1 (F := Ideal) := by
  dsimp only [W1, W0, hostOps0]
  after_results_simp
  unfold val_main_cst_1
  rfl

/-- The clamped outgoing counts. -/
theorem W2_v4 : W2 m ρ c (Proc.devRef .tc main_v4) = val_main_v4 (F := Ideal) (m ((c : Thread nD τ).loc main_arg6)) := by
  show StableHlo.after (hostOps0_1 (F := Ideal)) (W1 m ρ c) (Proc.devRef .tc main_v4) = _
  rw [clamp_out, W1_v3, W1_cst_1]
  unfold val_main_v4 val_main_call0_v1 val_main_call0_v0
  rfl

/-- The incoming counts and the second clamp's constant, after the third stretch (the second stretch, the first
    clamp, writes neither of the buffers they are computed from). -/
theorem W3_v7 : W3 m ρ c (Proc.devRef .tc main_v7) = val_main_v7 (F := Ideal) (m ((c : Thread nD τ).loc main_arg7)) := by
  dsimp only [W3, W2, W1, W0, hostOps0_2, hostOps0_1, hostOps0]
  after_results_simp
  unfold val_main_v7 val_main_v5 val_main_v6 val_main_v0 val_main_cst val_main_cst_2
  rfl
theorem W3_cst_3 : W3 m ρ c (Proc.devRef .tc main_cst_3) = val_main_cst_3 (F := Ideal) := by
  dsimp only [W3, hostOps0_2]
  after_results_simp
  unfold val_main_cst_3
  rfl

/-- The clamped incoming counts. -/
theorem W4_v8 : W4 m ρ c (Proc.devRef .tc main_v8) = val_main_v8 (F := Ideal) (m ((c : Thread nD τ).loc main_arg7)) := by
  show StableHlo.after (hostOps0_3 (F := Ideal)) (W3 m ρ c) (Proc.devRef .tc main_v8) = _
  rw [clamp_in, W3_v7, W3_cst_3]
  unfold val_main_v8 val_main_call1_v1 val_main_call1_v0
  rfl

/-- The clamped outgoing counts are still there two stretches later: neither writes their buffer. -/
theorem W4_v4 : W4 m ρ c (Proc.devRef .tc main_v4) = val_main_v4 (F := Ideal) (m ((c : Thread nD τ).loc main_arg6)) :=
  ((StableHlo.after_of_forall_not_mem _ _ (by unwritten)).trans
    (StableHlo.after_of_forall_not_mem (b := Proc.devRef .tc main_v4) hostOps0_2 (W2 m ρ c) (by unwritten))).trans (W2_v4 m ρ c)

/-- The outgoing-degree normalisation. -/
theorem W5_v10 : W5 m ρ c (Proc.devRef .tc main_v10)
    = val_main_v10 (F := Ideal) (m ((c : Thread nD τ).loc main_arg6)) := by
  show StableHlo.after (hostOps0_4 (F := Ideal)) (W4 m ρ c) (Proc.devRef .tc main_v10) = _
  rw [ops0_4_v10, W4_v4]
  unfold val_main_v10 val_main_v9 val_main_cst_4
  rfl

/-- The incoming-degree normalisation. -/
theorem W5_v12 : W5 m ρ c (Proc.devRef .tc main_v12)
    = val_main_v12 (F := Ideal) (m ((c : Thread nD τ).loc main_arg7)) := by
  show StableHlo.after (hostOps0_4 (F := Ideal)) (W4 m ρ c) (Proc.devRef .tc main_v12) = _
  rw [ops0_4_v12, W4_v8]
  unfold val_main_v12 val_main_v11 val_main_cst_5
  rfl

/-- What the first region leaves in its output array: the reference's first dense stage. -/
theorem W6_v39 : W6 m ρ c (Proc.devRef .tc main_v39)
    = val_main_v34 (F := Ideal) (m ((c : Thread nD τ).loc main_arg0)) (m ((c : Thread nD τ).loc main_arg1))
        (m ((c : Thread nD τ).loc main_arg3)) (m ((c : Thread nD τ).loc main_arg6)) (m ((c : Thread nD τ).loc main_arg7)) :=
  W6_v39_of m ρ c (W5_v10 m ρ c) (W5_v12 m ρ c)

end Cert.KernelIdeal.Hand

end
-- ==== Proof.Region1.lean ====
/-
  Region 1 of the kernel program, a grid of 20 points over row-blocks of 5000 rows: what its
  write-backs leave in its output array is the layer-normalisation function of the three arrays it
  reads, as the region finds them. Point `t` writes block `t` of that function, because a row's
  result depends on that row only and the two parameter rows are the same at every point; the 20
  blocks cover the array.
-/
import proofs.«174308_j60155311947857_1_alg».proof.Proof.Gen.KernelIdeal.Frame
import proofs.«174308_j60155311947857_1_alg».proof.Proof.LnSpec
import proofs.«174308_j60155311947857_1_alg».proof.Proof.LnPay
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, however spelt. -/
theorem zero_off1 : (![0, 0] : Fin 2 → Nat) = fun _ => 0 := funext fun a => by fin_cases a <;> rfl

/-- The index maps over the grid: the two big windows are at block row `t`, column block 0; the two
    parameter rows at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The input block at point `t` holds rows `5000 t … 5000 t + 4999` of the input array. -/
theorem iblk1_0_apply (c : Dev nD) (t : Fin cfg1.N) (p : Fin 5000) (k : Fin 128) (r : Fin 100000)
    (hr : r.val = 5000 * t.val + p.val) :
    (iblk1 V c 0 t : Vec Ideal S5000x128 .f32) (ix2 p k) = (V c main_v39 : S100000x128.Idx → EReal) (ix2 r k) := by
  obtain ⟨e0, e1, -⟩ := idx_facts1 t
  unfold iblk1
  rw [View.read_apply]
  show V c main_v39 (((cfg1.win 0).blk t).view.emb (ix2 p k)) = V c main_v39 (ix2 r k)
  refine congrArg _ (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The scale row's block is the scale row at every point. -/
theorem iblk1_1_apply (c : Dev nD) (t : Fin cfg1.N) (k : Fin 128) :
    (iblk1 V c 1 t : Vec Ideal S1x128 .f32) (ix2 (0 : Fin 1) k) = (V c main_v42 : S1x128.Idx → EReal) (ix2 (0 : Fin 1) k) := by
  obtain ⟨-, -, e0, e1, -⟩ := idx_facts1 t
  unfold iblk1
  rw [View.read_apply]
  show V c main_v42 (((cfg1.win 1).blk t).view.emb (ix2 (0 : Fin 1) k)) = V c main_v42 (ix2 (0 : Fin 1) k)
  refine congrArg _ (funext fun a => Fin.ext ?_)
  match a with
  | ⟨0, _⟩ => show win1_1.index t (0 : Fin 2) * 1 + 1 * 0 = 0; rw [e0]
  | ⟨1, _⟩ => show win1_1.index t (1 : Fin 2) * 128 + 1 * k.val = k.val; rw [e1]; omega

/-- The shift row's block is the shift row at every point. -/
theorem iblk1_2_apply (c : Dev nD) (t : Fin cfg1.N) (k : Fin 128) :
    (iblk1 V c 2 t : Vec Ideal S1x128 .f32) (ix2 (0 : Fin 1) k) = (V c main_v45 : S1x128.Idx → EReal) (ix2 (0 : Fin 1) k) := by
  obtain ⟨-, -, -, -, e0, e1, -⟩ := idx_facts1 t
  unfold iblk1
  rw [View.read_apply]
  show V c main_v45 (((cfg1.win 2).blk t).view.emb (ix2 (0 : Fin 1) k)) = V c main_v45 (ix2 (0 : Fin 1) k)
  refine congrArg _ (funext fun a => Fin.ext ?_)
  match a with
  | ⟨0, _⟩ => show win1_2.index t (0 : Fin 2) * 1 + 1 * 0 = 0; rw [e0]
  | ⟨1, _⟩ => show win1_2.index t (1 : Fin 2) * 128 + 1 * k.val = k.val; rw [e1]; omega

/-- Element `(p, q)` of the output block at point `t` sits at row `5000 t + p`, feature `q` of the output array. -/
theorem emb1_3 (t : Fin cfg1.N) (p : Fin 5000) (q : Fin 128) (r : Fin 100000) (hr : r.val = 5000 * t.val + p.val) :
    ((cfg1.win 3).blk t).view.emb (ix2 p q) = (ix2 r q : S100000x128.Idx) := by
  obtain ⟨-, -, -, -, -, -, e0, e1⟩ := idx_facts1 t
  refine funext fun a => Fin.ext ?_
  match a with
  | ⟨0, _⟩ => show win1_3.index t (0 : Fin 2) * 5000 + 1 * p.val = r.val; rw [e0, hr]; omega
  | ⟨1, _⟩ => show win1_3.index t (1 : Fin 2) * 128 + 1 * q.val = q.val; rw [e1]; omega

/-- WHAT POINT `t` WRITES BACK is block `t` of the layer-normalisation function of the arrays as the
    region finds them. -/
theorem flushed1_eq (c : Dev nD) (t : Fin cfg1.N) :
    (dat1 (F := Ideal) V c).flushed 3 t
      = ((cfg1.win 3).blk t).view.read (Elt Ideal) (Cert.Spec.lnRelu (V c main_v39) (V c main_v42) (V c main_v45)) := by
  show (cfg1.win 3).cut (grid1.coords t) ((dat1 V c).after 3 t) = _
  rw [after1_3]
  unfold out1_3
  rw [View.canon_unit_zero zero_off1]
  simp only [View.ld_unit_zero (S := S5000x128) zero_off1, View.ld_unit_zero (S := S1x128) zero_off1]
  funext j
  obtain ⟨p, q, rfl⟩ : ∃ (p : Fin 5000) (q : Fin 128), j = ix2 p q := ⟨j 0, j 1, eq_ix2 j⟩
  have ht : t.val < 20 := by have h := t.isLt; have hN : cfg1.N = 20 := N_1; omega
  have hp : p.val < 5000 := p.isLt
  obtain ⟨r, hr⟩ : ∃ r : Fin 100000, r.val = 5000 * t.val + p.val := ⟨⟨5000 * t.val + p.val, by omega⟩, rfl⟩
  show k1_pay1 (iblk1 V c 0 t) (iblk1 V c 1 t) (iblk1 V c 2 t) (ix2 p q)
    = Cert.Spec.lnRelu (V c main_v39) (V c main_v42) (V c main_v45) (((cfg1.win 3).blk t).view.emb (ix2 p q))
  rw [emb1_3 t p q r hr, Cert.Spec.lnRelu_ix2]
  refine (k1_pay1_apply (iblk1 V c 0 t) (iblk1 V c 1 t) (iblk1 V c 2 t) p q).trans ?_
  exact Cert.Spec.lnReluAt_congr_rows _ _ _ _ _ _ p r (fun k => iblk1_0_apply V c t p k r hr)
    (fun k => iblk1_1_apply V c t k) (fun k => iblk1_2_apply V c t k) q

/-- An index of the output array is in point `t`'s block iff each coordinate is in the block's range. -/
theorem mem_blk1_3 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v46).slice (win1_3.rect t)).set ↔ _
  rw [View.set_slice_whole, Rect.mem_set_unit]
  exact Iff.rfl

/-- Every row of the output array is in some point's block: row `r` in block `r / 5000`. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  have htv : t.val = (i 0).val / 5000 := rfl
  obtain ⟨-, -, -, -, -, -, e0, e1⟩ := idx_facts1 t
  refine ⟨t, flush1_3 t, ?_⟩
  rw [mem_blk1_3]
  intro a
  match a with
  | ⟨0, _⟩ => show win1_3.index t (0 : Fin 2) * 5000 ≤ (i 0).val ∧ (i 0).val < win1_3.index t (0 : Fin 2) * 5000 + 5000; rw [e0, htv]; omega
  | ⟨1, _⟩ => show win1_3.index t (1 : Fin 2) * 128 ≤ (i 1).val ∧ (i 1).val < win1_3.index t (1 : Fin 2) * 128 + 128; rw [e1]; omega

/-- THE OUTPUT ARRAY after the region's write-backs: the layer-normalisation function of the input
    array and the two parameter rows as the region finds them. -/
theorem region1_out (c : Dev nD) :
    (dat1 (F := Ideal) V c).arrAt 3 cfg1.N = Cert.Spec.lnRelu (V c main_v39) (V c main_v42) (V c main_v45) :=
  (dat1 (F := Ideal) V c).arrAt_eq_of_cover 3 (Cert.Spec.lnRelu (V c main_v39) (V c main_v42) (V c main_v45))
    (fun t _ => flushed1_eq V c t) (cover1)

end Cert.KernelIdeal.Hand

end
-- ==== Proof.Region2.lean ====
/-
  The second dense region, from blocks to the array.

  The region runs over 20 points; at point t it reads rows 5000 t .. 5000 t + 4999 of the
  aggregated features and of the first layer's output (all 128 columns), the whole weight matrix
  and the whole bias row, and writes the same rows of its output.  Entry (p, q) of the block the
  body stores is the residual layer's entry (5000 t + p, q) of the four arrays as the region finds
  them, so what point t writes back is block t of one function of those arrays; row r lies in the
  block of point r / 5000, so the blocks cover the output and the output ends holding that
  function.
-/
import proofs.«174308_j60155311947857_1_alg».proof.Proof.Gen.KernelIdeal.Frame
import proofs.«174308_j60155311947857_1_alg».proof.Proof.DenseSpec
import proofs.«174308_j60155311947857_1_alg».proof.Proof.DensePay
import Idealize.ShloMosaic.Lib.Pipeline.Value

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

/-- The body's accesses all start at offset zero on both axes. -/
theorem region2_hz : (![0, 0] : Fin 2 → Nat) = fun _ => 0 := funext fun a => by fin_cases a <;> rfl

/-- The block indices at point t, decided over the grid: the three row-blocked windows sit at
    block (t, 0), the weight matrix and the bias row at block (0, 0). -/
theorem region2_idx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- One stored entry against the residual layer: if the two row blocks are rows 5000 T .. of `A`
    and of `O`, and the weight and bias blocks are `W` and `b`, then entry j of the body's
    payload is the residual layer's entry (5000 T + j 0, j 1). -/
theorem region2_entry (A : Cert.Spec.SN.Idx → EReal) (W : Cert.Spec.SW.Idx → EReal) (b : Cert.Spec.SR.Idx → EReal)
    (O : Cert.Spec.SN.Idx → EReal)
    (x0 : Vec Ideal S5000x128 .f32) (x1 : Vec Ideal S128x128 .f32) (x2 : Vec Ideal S1x128 .f32)
    (x3 : Vec Ideal S5000x128 .f32) (T : Nat)
    (h0 : ∀ (y : S5000x128.Idx) (i : Cert.Spec.SN.Idx), (i 0).val = T * 5000 + (y 0).val → (i 1).val = (y 1).val → x0 y = A i)
    (h1 : x1 = W) (h2 : x2 = b)
    (h3 : ∀ (y : S5000x128.Idx) (i : Cert.Spec.SN.Idx), (i 0).val = T * 5000 + (y 0).val → (i 1).val = (y 1).val → x3 y = O i)
    (j : S5000x128.Idx) (i : Cert.Spec.SN.Idx) (hi0 : (i 0).val = T * 5000 + (j 0).val) (hi1 : (i 1).val = (j 1).val) :
    k2_pay1 x0 x1 x2 x3 j = Cert.Spec.denseRes A W b O i := by
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  have hs : s = q := Fin.ext hi1
  subst hs
  rw [k2_pay1_ix2, Cert.Spec.denseRes_ix2, h1, h2, h3 (ix2 p s) (ix2 r s) hi0 rfl]
  congr 3
  funext k
  rw [h0 (ix2 p k) (ix2 r k) hi0 rfl]

variable (V : (c : Dev nD) → (b : Ref sig .tc) → Buf (Elt Ideal) ((c : Thread nD τ).loc b))

/-- WHAT POINT t WRITES BACK is block t of the residual layer of the four arrays as the region
    finds them. -/
theorem region2_flushed (c : Dev nD) (t : Fin cfg2.N) :
    (dat2 (F := Ideal) V c).flushed 4 t
      = ((cfg2.win 4).blk t).view.read (Elt Ideal)
          (Cert.Spec.denseRes (V c main_v69) (V c main_v74) (V c main_v72) (V c main_v39)) := by
  show (cfg2.win 4).cut (grid2.coords t) ((dat2 (F := Ideal) V c).after 4 t) = _
  rw [after2_4]
  unfold out2_4
  rw [View.canon_unit_zero region2_hz]
  simp only [View.ld_unit_zero (S := S5000x128) region2_hz, View.ld_unit_zero (S := S128x128) region2_hz,
    View.ld_unit_zero (S := S1x128) region2_hz]
  obtain ⟨e00, e01, e10, e11, e20, e21, e30, e31, e40, e41⟩ := region2_idx t
  funext j
  show k2_pay1 (iblk2 V c 0 t) (iblk2 V c 1 t) (iblk2 V c 2 t) (iblk2 V c 3 t) j
    = Cert.Spec.denseRes (V c main_v69) (V c main_v74) (V c main_v72) (V c main_v39) (((cfg2.win 4).blk t).view.emb j)
  refine region2_entry (V c main_v69) (V c main_v74) (V c main_v72) (V c main_v39)
    (iblk2 V c 0 t) (iblk2 V c 1 t) (iblk2 V c 2 t) (iblk2 V c 3 t)
    t.val ?_ ?_ ?_ ?_ j (((cfg2.win 4).blk t).view.emb j) ?_ ?_
  · -- the features' row block: rows 5000 t .. 5000 t + 4999, every column
    intro y i hy0 hy1
    show V c main_v69 (((cfg2.win 0).blk t).view.emb y) = V c main_v69 i
    congr 1
    funext a
    apply Fin.ext
    match a with
    | ⟨0, _⟩ => show win2_0.index t (0 : Fin 2) * 5000 + 1 * (y 0).val = (i 0).val; omega
    | ⟨1, _⟩ => show win2_0.index t (1 : Fin 2) * 128 + 1 * (y 1).val = (i 1).val; omega
  · -- the weight block is the whole matrix
    funext y
    show V c main_v74 (((cfg2.win 1).blk t).view.emb y) = V c main_v74 y
    congr 1
    funext a
    apply Fin.ext
    match a with
    | ⟨0, _⟩ => show win2_1.index t (0 : Fin 2) * 128 + 1 * (y 0).val = (y 0).val; omega
    | ⟨1, _⟩ => show win2_1.index t (1 : Fin 2) * 128 + 1 * (y 1).val = (y 1).val; omega
  · -- the bias block is the whole row
    funext y
    show V c main_v72 (((cfg2.win 2).blk t).view.emb y) = V c main_v72 y
    congr 1
    funext a
    apply Fin.ext
    match a with
    | ⟨0, _⟩ => show win2_2.index t (0 : Fin 2) * 1 + 1 * (y 0).val = (y 0).val; omega
    | ⟨1, _⟩ => show win2_2.index t (1 : Fin 2) * 128 + 1 * (y 1).val = (y 1).val; omega
  · -- the first layer's output: the same rows
    intro y i hy0 hy1
    show V c main_v39 (((cfg2.win 3).blk t).view.emb y) = V c main_v39 i
    congr 1
    funext a
    apply Fin.ext
    match a with
    | ⟨0, _⟩ => show win2_3.index t (0 : Fin 2) * 5000 + 1 * (y 0).val = (i 0).val; omega
    | ⟨1, _⟩ => show win2_3.index t (1 : Fin 2) * 128 + 1 * (y 1).val = (i 1).val; omega
  · show win2_4.index t (0 : Fin 2) * 5000 + 1 * (j 0).val = t.val * 5000 + (j 0).val; omega
  · show win2_4.index t (1 : Fin 2) * 128 + 1 * (j 1).val = (j 1).val; omega

/-- An index of the output is in point t's block iff each coordinate is in the block's range. -/
theorem region2_mem (t : Fin cfg2.N) (i : S100000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v75).slice (win2_4.rect t)).set ↔ _
  rw [View.set_slice_whole, Rect.mem_set_unit]
  exact Iff.rfl

/-- Every index of the output is in some point's block: row r is in the block of point r / 5000. -/
theorem region2_cover (i : S100000x128.Idx) :
    ∃ t : Fin cfg2.N, (cfg2.win 4).flush t = true ∧ i ∈ ((cfg2.win 4).blk t).view.set := by
  have h0 : (i 0).val < 100000 := (i 0).isLt
  have h1 : (i 1).val < 128 := (i 1).isLt
  obtain ⟨t, ht⟩ : ∃ t : Fin cfg2.N, t.val = (i 0).val / 5000 :=
    ⟨⟨(i 0).val / 5000, by rw [show cfg2.N = 20 from N_2]; omega⟩, rfl⟩
  obtain ⟨-, -, -, -, -, -, -, -, e40, e41⟩ := region2_idx t
  refine ⟨t, flush2_4 t, ?_⟩
  rw [region2_mem]
  intro a
  match a with
  | ⟨0, _⟩ =>
    show win2_4.index t (0 : Fin 2) * 5000 ≤ (i 0).val ∧ (i 0).val < win2_4.index t (0 : Fin 2) * 5000 + 5000
    omega
  | ⟨1, _⟩ =>
    show win2_4.index t (1 : Fin 2) * 128 ≤ (i 1).val ∧ (i 1).val < win2_4.index t (1 : Fin 2) * 128 + 128
    omega

/-- THE OUTPUT after the region: the residual layer of the aggregated features, the weight
    matrix, the bias row and the first layer's output as the region finds them. -/
theorem region2_out (c : Dev nD) :
    (dat2 (F := Ideal) V c).arrAt 4 cfg2.N
      = Cert.Spec.denseRes (V c main_v69) (V c main_v74) (V c main_v72) (V c main_v39) :=
  (dat2 (F := Ideal) V c).arrAt_eq_of_cover 4
    (Cert.Spec.denseRes (V c main_v69) (V c main_v74) (V c main_v72) (V c main_v39))
    (fun t _ => region2_flushed V c t) region2_cover

end Cert.KernelIdeal.Hand

end
-- ==== Proof.Layer1.lean ====
/-
  The second layer, followed through the program.

  At the second region's entry its three arrays are the first dense layer's output and the second
  rows of the scale and shift tables read as single rows, so the region leaves the first layer's
  rectified normalisation.  The host operations after it aggregate that array along the edges and
  slice the second layer's weight matrix and bias row out of their tables; the first dense layer's
  output is still where the first region left it.  So at the third region's entry its four arrays
  are the reference's stages, and the region leaves the reference's second pre-activation.
-/
import proofs.«174308_j60155311947857_1_alg».proof.Proof.Gen.KernelIdeal.Frame
import proofs.«174308_j60155311947857_1_alg».proof.Proof.Gen.ReferenceIdeal.Read
import proofs.«174308_j60155311947857_1_alg».proof.Proof.Keep
import proofs.«174308_j60155311947857_1_alg».proof.Proof.Entry0
import proofs.«174308_j60155311947857_1_alg».proof.Proof.Agg
import proofs.«174308_j60155311947857_1_alg».proof.Proof.Region1
import proofs.«174308_j60155311947857_1_alg».proof.Proof.Region2
import proofs.«174308_j60155311947857_1_alg».proof.Proof.LnRef
import proofs.«174308_j60155311947857_1_alg».proof.Proof.DenseRef

noncomputable section

namespace Cert.KernelIdeal.Hand

open Cert.KernelIdeal Cert.KernelIdeal.Gen
open Cert.ReferenceIdeal.Read
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## Buffers the first two regions and the stretch between them leave alone -/

/-- A buffer that is no array of the first two regions and that the stretch between them does not
    write holds at the second region's exit what it held at the first region's entry. -/
theorem W8_of_W5 (r : Ref sig .tc) (h1 : ∀ w, Pipeline.arrRef spec1 w ≠ r) (h0 : ∀ w, Pipeline.arrRef spec0 w ≠ r)
    (hh : ∀ op ∈ (hostOps1 : List (HloOp τ sig (Elt Ideal))), Proc.devRef .tc r ∉ op.writes) :
    W8 m ρ c (Proc.devRef .tc r) = W5 m ρ c (Proc.devRef .tc r) :=
  (W8_of_ne m ρ c r h1).trans (W7_of_W5 m ρ c r h0 hh)

theorem W8_arg2 : W8 m ρ c (Proc.devRef .tc main_arg2) = (m ((c : Thread nD τ).loc main_arg2)) :=
  (W8_of_W5 m ρ c main_arg2 (by decide) (by decide) (by unwritten)).trans (W5_arg2 m ρ c)
theorem W8_arg3 : W8 m ρ c (Proc.devRef .tc main_arg3) = (m ((c : Thread nD τ).loc main_arg3)) :=
  (W8_of_W5 m ρ c main_arg3 (by decide) (by decide) (by unwritten)).trans (W5_arg3 m ρ c)
theorem W8_arg6 : W8 m ρ c (Proc.devRef .tc main_arg6) = (m ((c : Thread nD τ).loc main_arg6)) :=
  (W8_of_W5 m ρ c main_arg6 (by decide) (by decide) (by unwritten)).trans (W5_arg6 m ρ c)
theorem W8_arg7 : W8 m ρ c (Proc.devRef .tc main_arg7) = (m ((c : Thread nD τ).loc main_arg7)) :=
  (W8_of_W5 m ρ c main_arg7 (by decide) (by decide) (by unwritten)).trans (W5_arg7 m ρ c)
/-- The out-degree factors, computed before the first region, are still there. -/
theorem W8_v10 : W8 m ρ c (Proc.devRef .tc main_v10) = val_main_v10 (F := Ideal) (m ((c : Thread nD τ).loc main_arg6)) :=
  (W8_of_W5 m ρ c main_v10 (by decide) (by decide) (by unwritten)).trans (W5_v10 m ρ c)
/-- So are the in-degree factors. -/
theorem W8_v12 : W8 m ρ c (Proc.devRef .tc main_v12) = val_main_v12 (F := Ideal) (m ((c : Thread nD τ).loc main_arg7)) :=
  (W8_of_W5 m ρ c main_v12 (by decide) (by decide) (by unwritten)).trans (W5_v12 m ρ c)

/-! ## The second region's arrays at its entry -/

/-- The first dense layer's output: the stretch after the first region does not write it. -/
theorem W7_v39 : W7 m ρ c (Proc.devRef .tc main_v39) = val_main_v34 (F := Ideal) (m ((c : Thread nD τ).loc main_arg0)) (m ((c : Thread nD τ).loc main_arg1)) (m ((c : Thread nD τ).loc main_arg3)) (m ((c : Thread nD τ).loc main_arg6)) (m ((c : Thread nD τ).loc main_arg7)) :=
  (StableHlo.after_of_forall_not_mem (b := Proc.devRef .tc main_v39) _ _ (by unwritten)).trans (W6_v39 m ρ c)

/-- The scale row: the second row of the scale table, flattened and read back as a single row. -/
theorem W7_v42 : W7 m ρ c (Proc.devRef .tc main_v42) = Cert.Spec.rowOf (val_main_v36 (F := Ideal) (m ((c : Thread nD τ).loc main_arg4))) := by
  dsimp only [W7, hostOps1]
  after_results_simp
  rw [W6_of_ne m ρ c main_arg4 (by decide), W5_arg4 m ρ c]
  exact row_cast (val_main_v36 (F := Ideal) (m ((c : Thread nD τ).loc main_arg4))) shapeCasts_S128_S1x128

/-- The shift row: the second row of the shift table, flattened and read back as a single row. -/
theorem W7_v45 : W7 m ρ c (Proc.devRef .tc main_v45) = Cert.Spec.rowOf (val_main_v38 (F := Ideal) (m ((c : Thread nD τ).loc main_arg5))) := by
  dsimp only [W7, hostOps1]
  after_results_simp
  rw [W6_of_ne m ρ c main_arg5 (by decide), W5_arg5 m ρ c]
  exact row_cast (val_main_v38 (F := Ideal) (m ((c : Thread nD τ).loc main_arg5))) shapeCasts_S128_S1x128

/-! ## The second region's output -/

/-- THE SECOND REGION LEAVES the reference's first rectified normalisation. -/
theorem W8_v46 : W8 m ρ c (Proc.devRef .tc main_v46)
    = val_main_v63 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 3).trans ((region1_out (V7 m ρ) c).trans ?_)
  show Cert.Spec.lnRelu (W7 m ρ c (Proc.devRef .tc main_v39)) (W7 m ρ c (Proc.devRef .tc main_v42)) (W7 m ρ c (Proc.devRef .tc main_v45)) = _
  rw [W7_v39 m ρ c, W7_v42 m ρ c, W7_v45 m ρ c]
  exact (Cert.RefHand.val_main_v63_ln _ _ _ _ _ _ _).symm

/-- The second region reads the first dense layer's output and leaves it as it found it. -/
theorem W8_v39 : W8 m ρ c (Proc.devRef .tc main_v39) = val_main_v34 (F := Ideal) (m ((c : Thread nD τ).loc main_arg0)) (m ((c : Thread nD τ).loc main_arg1)) (m ((c : Thread nD τ).loc main_arg3)) (m ((c : Thread nD τ).loc main_arg6)) (m ((c : Thread nD τ).loc main_arg7)) :=
  (W8_arr m ρ c 0).trans (((dat1 (V7 m ρ) c).arrAt_in 0 rfl _).trans ((A_eq1 (V7 m ρ) c 0).trans (W7_v39 m ρ c)))

/-! ## The third region's arrays at its entry -/

/-- The aggregated features: the aggregation of the second region's output. -/
theorem W9_v69 : W9 m ρ c (Proc.devRef .tc main_v69)
    = val_main_v83 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  dsimp only [W9, hostOps2]
  after_results_simp
  rw [W8_v46 m ρ c, W8_arg6 m ρ c, W8_arg7 m ρ c, W8_v10 m ρ c, W8_v12 m ρ c]
  exact (aggK_eq _ _ _ _ _).trans (val_main_v83_agg _ _ _ _ _ _ _).symm

/-- The weight matrix: the first matrix of the weight table. -/
theorem W9_v74 : W9 m ρ c (Proc.devRef .tc main_v74) = val_main_v65 (F := Ideal) (m ((c : Thread nD τ).loc main_arg2)) := by
  dsimp only [W9, hostOps2]
  after_results_simp
  rw [W8_arg2 m ρ c]
  rfl

/-- The bias row: the second row of the bias table, flattened and read back as a single row. -/
theorem W9_v72 : W9 m ρ c (Proc.devRef .tc main_v72) = Cert.Spec.rowOf (val_main_v67 (F := Ideal) (m ((c : Thread nD τ).loc main_arg3))) := by
  dsimp only [W9, hostOps2]
  after_results_simp
  rw [W8_arg3 m ρ c]
  exact row_cast (val_main_v67 (F := Ideal) (m ((c : Thread nD τ).loc main_arg3))) shapeCasts_S128_S1x128

/-- The first dense layer's output: the stretch after the second region does not write it. -/
theorem W9_v39 : W9 m ρ c (Proc.devRef .tc main_v39) = val_main_v34 (F := Ideal) (m ((c : Thread nD τ).loc main_arg0)) (m ((c : Thread nD τ).loc main_arg1)) (m ((c : Thread nD τ).loc main_arg3)) (m ((c : Thread nD τ).loc main_arg6)) (m ((c : Thread nD τ).loc main_arg7)) :=
  (StableHlo.after_of_forall_not_mem (b := Proc.devRef .tc main_v39) _ _ (by unwritten)).trans (W8_v39 m ρ c)

/-! ## The third region's output -/

/-- THE THIRD REGION LEAVES the reference's second pre-activation. -/
theorem W10_v75 : W10 m ρ c (Proc.devRef .tc main_v75)
    = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 4).trans ((region2_out (V9 m ρ) c).trans ?_)
  show Cert.Spec.denseRes (W9 m ρ c (Proc.devRef .tc main_v69)) (W9 m ρ c (Proc.devRef .tc main_v74)) (W9 m ρ c (Proc.devRef .tc main_v72))
    (W9 m ρ c (Proc.devRef .tc main_v39)) = _
  rw [W9_v69 m ρ c, W9_v74 m ρ c, W9_v72 m ρ c, W9_v39 m ρ c]
  exact (Cert.RefHand.val_main_v90_denseRes _ _ _ _ _ _ _ _).symm

end Cert.KernelIdeal.Hand

end
-- ==== Proof.Region4.lean ====
/-
  The third dense region, from blocks to the array.

  The region runs over 20 points; at point t it reads rows 5000 t .. 5000 t + 4999 of the
  aggregated features and of the first layer's output (all 128 columns), the whole weight matrix
  and the whole bias row, and writes the same rows of its output.  Entry (p, q) of the block the
  body stores is the residual layer's entry (5000 t + p, q) of the four arrays as the region finds
  them, so what point t writes back is block t of one function of those arrays; row r lies in the
  block of point r / 5000, so the blocks cover the output and the output ends holding that
  function.
-/
import proofs.«174308_j60155311947857_1_alg».proof.Proof.Gen.KernelIdeal.Frame
import proofs.«174308_j60155311947857_1_alg».proof.Proof.DenseSpec
import proofs.«174308_j60155311947857_1_alg».proof.Proof.DensePay
import Idealize.ShloMosaic.Lib.Pipeline.Value

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

/-- The body's accesses all start at offset zero on both axes. -/
theorem region4_hz : (![0, 0] : Fin 2 → Nat) = fun _ => 0 := funext fun a => by fin_cases a <;> rfl

/-- The block indices at point t, decided over the grid: the three row-blocked windows sit at
    block (t, 0), the weight matrix and the bias row at block (0, 0). -/
theorem region4_idx : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- One stored entry against the residual layer: if the two row blocks are rows 5000 T .. of `A`
    and of `O`, and the weight and bias blocks are `W` and `b`, then entry j of the body's
    payload is the residual layer's entry (5000 T + j 0, j 1). -/
theorem region4_entry (A : Cert.Spec.SN.Idx → EReal) (W : Cert.Spec.SW.Idx → EReal) (b : Cert.Spec.SR.Idx → EReal)
    (O : Cert.Spec.SN.Idx → EReal)
    (x0 : Vec Ideal S5000x128 .f32) (x1 : Vec Ideal S128x128 .f32) (x2 : Vec Ideal S1x128 .f32)
    (x3 : Vec Ideal S5000x128 .f32) (T : Nat)
    (h0 : ∀ (y : S5000x128.Idx) (i : Cert.Spec.SN.Idx), (i 0).val = T * 5000 + (y 0).val → (i 1).val = (y 1).val → x0 y = A i)
    (h1 : x1 = W) (h2 : x2 = b)
    (h3 : ∀ (y : S5000x128.Idx) (i : Cert.Spec.SN.Idx), (i 0).val = T * 5000 + (y 0).val → (i 1).val = (y 1).val → x3 y = O i)
    (j : S5000x128.Idx) (i : Cert.Spec.SN.Idx) (hi0 : (i 0).val = T * 5000 + (j 0).val) (hi1 : (i 1).val = (j 1).val) :
    k4_pay1 x0 x1 x2 x3 j = Cert.Spec.denseRes A W b O i := by
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  have hs : s = q := Fin.ext hi1
  subst hs
  rw [k4_pay1_ix2, Cert.Spec.denseRes_ix2, h1, h2, h3 (ix2 p s) (ix2 r s) hi0 rfl]
  congr 3
  funext k
  rw [h0 (ix2 p k) (ix2 r k) hi0 rfl]

variable (V : (c : Dev nD) → (b : Ref sig .tc) → Buf (Elt Ideal) ((c : Thread nD τ).loc b))

/-- WHAT POINT t WRITES BACK is block t of the residual layer of the four arrays as the region
    finds them. -/
theorem region4_flushed (c : Dev nD) (t : Fin cfg4.N) :
    (dat4 (F := Ideal) V c).flushed 4 t
      = ((cfg4.win 4).blk t).view.read (Elt Ideal)
          (Cert.Spec.denseRes (V c main_v105) (V c main_v110) (V c main_v108) (V c main_v39)) := by
  show (cfg4.win 4).cut (grid4.coords t) ((dat4 (F := Ideal) V c).after 4 t) = _
  rw [after4_4]
  unfold out4_4
  rw [View.canon_unit_zero region4_hz]
  simp only [View.ld_unit_zero (S := S5000x128) region4_hz, View.ld_unit_zero (S := S128x128) region4_hz,
    View.ld_unit_zero (S := S1x128) region4_hz]
  obtain ⟨e00, e01, e10, e11, e20, e21, e30, e31, e40, e41⟩ := region4_idx t
  funext j
  show k4_pay1 (iblk4 V c 0 t) (iblk4 V c 1 t) (iblk4 V c 2 t) (iblk4 V c 3 t) j
    = Cert.Spec.denseRes (V c main_v105) (V c main_v110) (V c main_v108) (V c main_v39) (((cfg4.win 4).blk t).view.emb j)
  refine region4_entry (V c main_v105) (V c main_v110) (V c main_v108) (V c main_v39)
    (iblk4 V c 0 t) (iblk4 V c 1 t) (iblk4 V c 2 t) (iblk4 V c 3 t)
    t.val ?_ ?_ ?_ ?_ j (((cfg4.win 4).blk t).view.emb j) ?_ ?_
  · -- the features' row block: rows 5000 t .. 5000 t + 4999, every column
    intro y i hy0 hy1
    show V c main_v105 (((cfg4.win 0).blk t).view.emb y) = V c main_v105 i
    congr 1
    funext a
    apply Fin.ext
    match a with
    | ⟨0, _⟩ => show win4_0.index t (0 : Fin 2) * 5000 + 1 * (y 0).val = (i 0).val; omega
    | ⟨1, _⟩ => show win4_0.index t (1 : Fin 2) * 128 + 1 * (y 1).val = (i 1).val; omega
  · -- the weight block is the whole matrix
    funext y
    show V c main_v110 (((cfg4.win 1).blk t).view.emb y) = V c main_v110 y
    congr 1
    funext a
    apply Fin.ext
    match a with
    | ⟨0, _⟩ => show win4_1.index t (0 : Fin 2) * 128 + 1 * (y 0).val = (y 0).val; omega
    | ⟨1, _⟩ => show win4_1.index t (1 : Fin 2) * 128 + 1 * (y 1).val = (y 1).val; omega
  · -- the bias block is the whole row
    funext y
    show V c main_v108 (((cfg4.win 2).blk t).view.emb y) = V c main_v108 y
    congr 1
    funext a
    apply Fin.ext
    match a with
    | ⟨0, _⟩ => show win4_2.index t (0 : Fin 2) * 1 + 1 * (y 0).val = (y 0).val; omega
    | ⟨1, _⟩ => show win4_2.index t (1 : Fin 2) * 128 + 1 * (y 1).val = (y 1).val; omega
  · -- the first layer's output: the same rows
    intro y i hy0 hy1
    show V c main_v39 (((cfg4.win 3).blk t).view.emb y) = V c main_v39 i
    congr 1
    funext a
    apply Fin.ext
    match a with
    | ⟨0, _⟩ => show win4_3.index t (0 : Fin 2) * 5000 + 1 * (y 0).val = (i 0).val; omega
    | ⟨1, _⟩ => show win4_3.index t (1 : Fin 2) * 128 + 1 * (y 1).val = (i 1).val; omega
  · show win4_4.index t (0 : Fin 2) * 5000 + 1 * (j 0).val = t.val * 5000 + (j 0).val; omega
  · show win4_4.index t (1 : Fin 2) * 128 + 1 * (j 1).val = (j 1).val; omega

/-- An index of the output is in point t's block iff each coordinate is in the block's range. -/
theorem region4_mem (t : Fin cfg4.N) (i : S100000x128.Idx) :
    i ∈ ((cfg4.win 4).blk t).view.set ↔ ∀ a : Fin 2, win4_4.index t a * S5000x128.size a ≤ (i a).val
      ∧ (i a).val < win4_4.index t a * S5000x128.size a + S5000x128.size a := by
  show i ∈ ((View.whole main_v111).slice (win4_4.rect t)).set ↔ _
  rw [View.set_slice_whole, Rect.mem_set_unit]
  exact Iff.rfl

/-- Every index of the output is in some point's block: row r is in the block of point r / 5000. -/
theorem region4_cover (i : S100000x128.Idx) :
    ∃ t : Fin cfg4.N, (cfg4.win 4).flush t = true ∧ i ∈ ((cfg4.win 4).blk t).view.set := by
  have h0 : (i 0).val < 100000 := (i 0).isLt
  have h1 : (i 1).val < 128 := (i 1).isLt
  obtain ⟨t, ht⟩ : ∃ t : Fin cfg4.N, t.val = (i 0).val / 5000 :=
    ⟨⟨(i 0).val / 5000, by rw [show cfg4.N = 20 from N_4]; omega⟩, rfl⟩
  obtain ⟨-, -, -, -, -, -, -, -, e40, e41⟩ := region4_idx t
  refine ⟨t, flush4_4 t, ?_⟩
  rw [region4_mem]
  intro a
  match a with
  | ⟨0, _⟩ =>
    show win4_4.index t (0 : Fin 2) * 5000 ≤ (i 0).val ∧ (i 0).val < win4_4.index t (0 : Fin 2) * 5000 + 5000
    omega
  | ⟨1, _⟩ =>
    show win4_4.index t (1 : Fin 2) * 128 ≤ (i 1).val ∧ (i 1).val < win4_4.index t (1 : Fin 2) * 128 + 128
    omega

/-- THE OUTPUT after the region: the residual layer of the aggregated features, the weight
    matrix, the bias row and the first layer's output as the region finds them. -/
theorem region4_out (c : Dev nD) :
    (dat4 (F := Ideal) V c).arrAt 4 cfg4.N
      = Cert.Spec.denseRes (V c main_v105) (V c main_v110) (V c main_v108) (V c main_v39) :=
  (dat4 (F := Ideal) V c).arrAt_eq_of_cover 4
    (Cert.Spec.denseRes (V c main_v105) (V c main_v110) (V c main_v108) (V c main_v39))
    (fun t _ => region4_flushed V c t) region4_cover

end Cert.KernelIdeal.Hand

end
-- ==== Proof.Result.lean ====
/-
  The last region in the run of @main: the arrays it finds are the third layer's aggregated
  features, weight matrix and bias row and the first layer's output, so what it leaves in the result
  array is the reference's last stage.
-/
import proofs.«174308_j60155311947857_1_alg».proof.Proof.Keep
import proofs.«174308_j60155311947857_1_alg».proof.Proof.Region4
import proofs.«174308_j60155311947857_1_alg».proof.Proof.DenseRef
import proofs.«174308_j60155311947857_1_alg».proof.Proof.GatherLaw
import proofs.«174308_j60155311947857_1_alg».proof.Proof.Layer2
import proofs.«174308_j60155311947857_1_alg».proof.Proof.Agg

noncomputable section

namespace Cert.KernelIdeal.Hand

open Cert.KernelIdeal Cert.KernelIdeal.Gen
open Cert.ReferenceIdeal.Read
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## Buffers nothing has written since the first region's entry -/

/-- From the first region's entry to the third region's exit, for a buffer none of the regions and
    none of the stretches between them writes. -/
theorem W12_of_W5 (r : Ref sig .tc) (h0 : ∀ w, Pipeline.arrRef spec0 w ≠ r) (h1 : ∀ w, Pipeline.arrRef spec1 w ≠ r)
    (h2 : ∀ w, Pipeline.arrRef spec2 w ≠ r) (h3 : ∀ w, Pipeline.arrRef spec3 w ≠ r)
    (k1 : ∀ op ∈ (hostOps1 : List (HloOp τ sig (Elt Ideal))), Proc.devRef .tc r ∉ op.writes)
    (k2 : ∀ op ∈ (hostOps2 : List (HloOp τ sig (Elt Ideal))), Proc.devRef .tc r ∉ op.writes)
    (k3 : ∀ op ∈ (hostOps3 : List (HloOp τ sig (Elt Ideal))), Proc.devRef .tc r ∉ op.writes) :
    W12 m ρ c (Proc.devRef .tc r) = W5 m ρ c (Proc.devRef .tc r) :=
  (W12_of_ne m ρ c r h3).trans ((W11_of_W9 m ρ c r h2 k3).trans ((W9_of_W7 m ρ c r h1 k2).trans (W7_of_W5 m ρ c r h0 k1)))

theorem W12_arg2 : W12 m ρ c (Proc.devRef .tc main_arg2) = m ((c : Thread nD τ).loc main_arg2) :=
  (W12_of_W5 m ρ c main_arg2 (by decide) (by decide) (by decide) (by decide) (by unwritten) (by unwritten) (by unwritten)).trans (W5_arg2 m ρ c)
theorem W12_arg3 : W12 m ρ c (Proc.devRef .tc main_arg3) = m ((c : Thread nD τ).loc main_arg3) :=
  (W12_of_W5 m ρ c main_arg3 (by decide) (by decide) (by decide) (by decide) (by unwritten) (by unwritten) (by unwritten)).trans (W5_arg3 m ρ c)
theorem W12_arg6 : W12 m ρ c (Proc.devRef .tc main_arg6) = m ((c : Thread nD τ).loc main_arg6) :=
  (W12_of_W5 m ρ c main_arg6 (by decide) (by decide) (by decide) (by decide) (by unwritten) (by unwritten) (by unwritten)).trans (W5_arg6 m ρ c)
theorem W12_arg7 : W12 m ρ c (Proc.devRef .tc main_arg7) = m ((c : Thread nD τ).loc main_arg7) :=
  (W12_of_W5 m ρ c main_arg7 (by decide) (by decide) (by decide) (by decide) (by unwritten) (by unwritten) (by unwritten)).trans (W5_arg7 m ρ c)
theorem W12_v10 : W12 m ρ c (Proc.devRef .tc main_v10) = W5 m ρ c (Proc.devRef .tc main_v10) :=
  W12_of_W5 m ρ c main_v10 (by decide) (by decide) (by decide) (by decide) (by unwritten) (by unwritten) (by unwritten)
theorem W12_v12 : W12 m ρ c (Proc.devRef .tc main_v12) = W5 m ρ c (Proc.devRef .tc main_v12) :=
  W12_of_W5 m ρ c main_v12 (by decide) (by decide) (by decide) (by decide) (by unwritten) (by unwritten) (by unwritten)

/-! ## The last region's four input arrays -/

/-- The weight matrix at the last region's entry: the second matrix of the weight stack. -/
theorem W13_v110 : W13 m ρ c (Proc.devRef .tc main_v110) = val_main_v121 (F := Ideal) (m ((c : Thread nD τ).loc main_arg2)) := by
  dsimp only [W13, hostOps4]
  after_results_simp
  rw [W12_arg2]
  rfl

/-- The bias row at the last region's entry: the third row of the bias table, as a single-row array. -/
theorem W13_v108 : W13 m ρ c (Proc.devRef .tc main_v108) = Cert.Spec.rowOf (val_main_v123 (F := Ideal) (m ((c : Thread nD τ).loc main_arg3))) := by
  dsimp only [W13, hostOps4]
  after_results_simp
  rw [W12_arg3]
  exact rowOf_cast _ _

/-- The first layer's output at the last region's entry: region 0 wrote it; regions 1 and 2 read it as
    an input window, and nothing else touches it. -/
theorem W13_v39 : W13 m ρ c (Proc.devRef .tc main_v39) = W6 m ρ c (Proc.devRef .tc main_v39) :=
  calc W13 m ρ c (Proc.devRef .tc main_v39)
    _ = W12 m ρ c (Proc.devRef .tc main_v39) := StableHlo.after_of_forall_not_mem _ _ (by unwritten)
    _ = W11 m ρ c (Proc.devRef .tc main_v39) := W12_of_ne m ρ c main_v39 (by decide)
    _ = W10 m ρ c (Proc.devRef .tc main_v39) := StableHlo.after_of_forall_not_mem _ _ (by unwritten)
    _ = W9 m ρ c (Proc.devRef .tc main_v39) :=
        (W10_arr m ρ c 3).trans (((dat2 (V9 m ρ) c).arrAt_in 3 rfl _).trans (A_eq2 (V9 m ρ) c 3))
    _ = W8 m ρ c (Proc.devRef .tc main_v39) := StableHlo.after_of_forall_not_mem _ _ (by unwritten)
    _ = W7 m ρ c (Proc.devRef .tc main_v39) :=
        (W8_arr m ρ c 0).trans (((dat1 (V7 m ρ) c).arrAt_in 0 rfl _).trans (A_eq1 (V7 m ρ) c 0))
    _ = W6 m ρ c (Proc.devRef .tc main_v39) := StableHlo.after_of_forall_not_mem _ _ (by unwritten)

/-- The aggregated features at the last region's entry: the aggregation of what region 3 left, which
    is the reference's aggregation of its second rectified normalisation. -/
theorem W13_v105
    (hW12 : W12 m ρ c (Proc.devRef .tc main_v82) = val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
    (hv10 : W5 m ρ c (Proc.devRef .tc main_v10) = val_main_v10 (F := Ideal) (m ((c : Thread nD τ).loc main_arg6)))
    (hv12 : W5 m ρ c (Proc.devRef .tc main_v12) = val_main_v12 (F := Ideal) (m ((c : Thread nD τ).loc main_arg7))) :
    W13 m ρ c (Proc.devRef .tc main_v105) = val_main_v139 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  dsimp only [W13, hostOps4]
  after_results_simp
  rw [hW12, W12_arg6, W12_arg7, W12_v10, hv10, W12_v12, hv12]
  exact (aggK_eq _ _ _ _ _).trans (val_main_v139_agg _ _ _ _ _ _ _ _).symm

/-- WHAT THE LAST REGION LEAVES in the result array: the reference's last stage. -/
theorem result_eq
    (hW12 : W12 m ρ c (Proc.devRef .tc main_v82) = val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
    (hv10 : W5 m ρ c (Proc.devRef .tc main_v10) = val_main_v10 (F := Ideal) (m ((c : Thread nD τ).loc main_arg6)))
    (hv12 : W5 m ρ c (Proc.devRef .tc main_v12) = val_main_v12 (F := Ideal) (m ((c : Thread nD τ).loc main_arg7)))
    (hv39 : W6 m ρ c (Proc.devRef .tc main_v39) = val_main_v34 (F := Ideal) (m ((c : Thread nD τ).loc main_arg0)) (m ((c : Thread nD τ).loc main_arg1)) (m ((c : Thread nD τ).loc main_arg3)) (m ((c : Thread nD τ).loc main_arg6)) (m ((c : Thread nD τ).loc main_arg7))) :
    W14 m ρ c (Proc.devRef .tc main_v111) = val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W14_arr m ρ c 4).trans ((region4_out (V13 m ρ) c).trans ?_)
  show Cert.Spec.denseRes (W13 m ρ c (Proc.devRef .tc main_v105)) (W13 m ρ c (Proc.devRef .tc main_v110))
      (W13 m ρ c (Proc.devRef .tc main_v108)) (W13 m ρ c (Proc.devRef .tc main_v39)) = _
  rw [W13_v105 m ρ c hW12 hv10 hv12, W13_v110, W13_v108, W13_v39, hv39]
  exact (Cert.RefHand.val_main_v146_denseRes _ _ _ _ _ _ _ _).symm

end Cert.KernelIdeal.Hand

end
-- ==== Proof.lean ====
/- The proof of `Cert.Claim`: the three frame claims, the idealization's ledger, and the algebraic claim
   between the idealized kernel program and the idealized reference.

   The kernel program is five row-blocked regions over a [100000, 128] array of node features — a dense
   layer (features times a weight matrix, plus a bias row), a layer normalisation with a rectifier, a dense
   layer with one half of the first layer's output added, the normalisation again, the residual dense layer
   again — among host operations that gather each edge's source row, scale it, and scatter-add it onto the
   edge's target node. The reference is the same three graph-convolution layers as plain host operations. At
   the extended reals every float operation is exact and a change of float format is the identity, so a
   region's matrix product on a zero accumulator is the host's product, a row reduction in a block is the
   host's row reduction, and the two programs compute one function of the eight arguments. The one place where
   the two differ in more than tiling is the aggregation: the reference scales each node's row by the node's
   degree normalisation and then gathers rows along the edges, the kernel program gathers rows and
   normalisations separately and multiplies edge by edge; both read, for an edge, the same node, so the two are
   one array. No law of arithmetic that could fail at an infinity is used, and the precondition is not opened.

   Where each part lives: the layer functions and the kernel bodies read entry by entry (DenseSpec, DensePay,
   LnSpec, LnPay); each region's output array as its layer function of the arrays the region finds, block by
   block and then as a whole (Region0 … Region4); the reference's stages as the same functions (DenseRef,
   LnRef); the aggregation between the layers (GatherLaw, Agg) and the buffers nothing writes (Keep); the arrays
   followed through the program, boundary by boundary, each landing on the reference's stage of the same
   meaning (Entry1, Entry0, Layer1, Layer2, Result); the run with the result array named (FrameAll, KernelRun);
   the five claims (Claims). -/
import proofs.«174308_j60155311947857_1_alg».proof.Defs
import proofs.«174308_j60155311947857_1_alg».proof.Proof.Gen.Kernel
import proofs.«174308_j60155311947857_1_alg».proof.Proof.Gen.Kernel.Skeleton
import proofs.«174308_j60155311947857_1_alg».proof.Proof.Gen.Kernel.Launch
import proofs.«174308_j60155311947857_1_alg».proof.Proof.Gen.Kernel.Points
import proofs.«174308_j60155311947857_1_alg».proof.Proof.Gen.Kernel.Frame
import proofs.«174308_j60155311947857_1_alg».proof.Proof.Gen.KernelIdeal
import proofs.«174308_j60155311947857_1_alg».proof.Proof.Gen.KernelIdeal.Skeleton
import proofs.«174308_j60155311947857_1_alg».proof.Proof.Gen.KernelIdeal.Launch
import proofs.«174308_j60155311947857_1_alg».proof.Proof.Gen.KernelIdeal.Points
import proofs.«174308_j60155311947857_1_alg».proof.Proof.Gen.KernelIdeal.Frame
import proofs.«174308_j60155311947857_1_alg».proof.Proof.Gen.ReferenceIdeal
import proofs.«174308_j60155311947857_1_alg».proof.Proof.Gen.Pre_finite_inputs
import Idealize.ShloMosaic.Adequacy
import Idealize.ShloMosaic.Init
import proofs.«174308_j60155311947857_1_alg».proof.Proof.Claims
import proofs.«174308_j60155311947857_1_alg».proof.Proof.Entry0
import proofs.«174308_j60155311947857_1_alg».proof.Proof.Layer1
import proofs.«174308_j60155311947857_1_alg».proof.Proof.Layer2
import proofs.«174308_j60155311947857_1_alg».proof.Proof.Result

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves,
    -- the result array is the reference's last stage of the launch arguments: the third layer's output from the
    -- second's, from the first's, each by its region and the aggregation before it
    Claims.algebraic_of fun m ρ c =>
      Cert.KernelIdeal.Hand.result_eq m ρ c
        (Cert.KernelIdeal.Hand.W12_v82 m ρ c (Cert.KernelIdeal.Hand.W10_v75 m ρ c))
        (Cert.KernelIdeal.Hand.W5_v10 m ρ c) (Cert.KernelIdeal.Hand.W5_v12 m ρ c) (Cert.KernelIdeal.Hand.W6_v39 m ρ c)⟩

end Cert.Proof

end
